-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x513x1600 : Shape := ⟨3, ![32, 513, 1600]⟩
abbrev S_ : Shape := ⟨0, ![]⟩

class Facts : Prop where
  bcast_S_S32x513x1600 : S_.BroadcastsInDim S32x513x1600 (![] : Fin 0 → Fin S32x513x1600.rank)
  reducesTo_S32x513x1600_S_d0_1_2 : S32x513x1600.ReducesTo [0, 1, 2] S_
  h_S_ : 0 < S_.numel

variable [Facts]

def fn {F : FTy → Type} [FloatOps F] (main_arg0 : FVec F S32x513x1600 .f32) (main_arg1 : FVec F S32x513x1600 .f32) : IVec S_ 1 :=
  let main_v0 : FVec F S32x513x1600 .f32 := Host.absf main_arg0
  let main_cst : FVec F S_ .f32 := constant S_ .f32 0x7F800000#32
  let main_v1 : FVec F S32x513x1600 .f32 := broadcastInDim S32x513x1600 ![] bcast_S_S32x513x1600 main_cst
  let main_v2 : IVec S32x513x1600 1 := cmpf .olt main_v0 main_v1
  let main_c : IVec S_ 1 := constantI S_ 1 1#1
  let main_v3 : IVec S_ 1 := (fun x v => Host.reduce IntOp.andi x v reducesTo_S32x513x1600_S_d0_1_2 h_S_) main_v2 main_c
  let main_v4 : FVec F S32x513x1600 .f32 := Host.absf main_arg1
  let main_cst_0 : FVec F S_ .f32 := constant S_ .f32 0x7F800000#32
  let main_v5 : FVec F S32x513x1600 .f32 := broadcastInDim S32x513x1600 ![] bcast_S_S32x513x1600 main_cst_0
  let main_v6 : IVec S32x513x1600 1 := cmpf .olt main_v4 main_v5
  let main_c_1 : IVec S_ 1 := constantI S_ 1 1#1
  let main_v7 : IVec S_ 1 := (fun x v => Host.reduce IntOp.andi x v reducesTo_S32x513x1600_S_d0_1_2 h_S_) main_v6 main_c_1
  let main_v8 : IVec S_ 1 := andi main_v3 main_v7
  main_v8
-- ==== Kernel.lean ====
abbrev S32x513x1600 : Shape := ⟨3, ![32, 513, 1600]⟩
abbrev S2x1x128 : Shape := ⟨3, ![2, 1, 128]⟩
abbrev S1x513x1600 : Shape := ⟨3, ![1, 513, 1600]⟩
abbrev S1x1x128 : Shape := ⟨3, ![1, 1, 128]⟩
abbrev S513x1600 : Shape := ⟨2, ![513, 1600]⟩
abbrev S513 : Shape := ⟨1, ![513]⟩
abbrev S513x1 : Shape := ⟨2, ![513, 1]⟩
abbrev S1 : Shape := ⟨1, ![1]⟩
abbrev S1x1 : Shape := ⟨2, ![1, 1]⟩
abbrev S1x1600 : Shape := ⟨2, ![1, 1600]⟩
abbrev S1x3 : Shape := ⟨2, ![1, 3]⟩
abbrev S1x125 : Shape := ⟨2, ![1, 125]⟩
abbrev S1x128 : Shape := ⟨2, ![1, 128]⟩
abbrev S2x1x3 : Shape := ⟨3, ![2, 1, 3]⟩
abbrev S2x3 : Shape := ⟨2, ![2, 3]⟩
abbrev S_ : Shape := ⟨0, ![]⟩
abbrev S3 : Shape := ⟨1, ![3]⟩

abbrev nBuf : Space → Nat
  | .hbm => 19
  | .vmem => 6
  | .smem => 0
  | _ => 0

abbrev bufTy : (tb : Table) → Fin (tcTables nBuf tb) → BufTy
  | .hbm, ⟨0, _⟩ => ⟨S32x513x1600, .f32⟩
  | .hbm, ⟨1, _⟩ => ⟨S32x513x1600, .f32⟩
  | .hbm, ⟨2, _⟩ => ⟨S2x1x128, .f32⟩
  | .hbm, ⟨3, _⟩ => ⟨S2x1x3, .f32⟩
  | .hbm, ⟨4, _⟩ => ⟨S2x3, .f32⟩
  | .hbm, ⟨5, _⟩ => ⟨S_, .f32⟩
  | .hbm, ⟨6, _⟩ => ⟨S3, .f32⟩
  | .hbm, ⟨7, _⟩ => ⟨S1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S1x513x1600, .f32⟩
  | .local _ .vmem, ⟨1, _⟩ => ⟨S1x513x1600, .f32⟩
  | .local _ .vmem, ⟨2, _⟩ => ⟨S1x513x1600, .f32⟩
  | .local _ .vmem, ⟨3, _⟩ => ⟨S1x513x1600, .f32⟩
  | .local _ .vmem, ⟨4, _⟩ => ⟨S1x1x128, .f32⟩
  | .local _ .vmem, ⟨5, _⟩ => ⟨S1x1x128, .f32⟩
  | _, _ => ⟨S32x513x1600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x513x1600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x513x1600 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1x128_S1x1x128_0_0_0 : ∀ a, (![0, 0, 0] : Fin 3 → Nat) a + S1x1x128.size a ≤ S1x1x128.size a
  h_S1x1x128 : 0 < S1x1x128.numel
  inb_S1x513x1600_S1x513x1600_0_0_0 : ∀ a, (![0, 0, 0] : Fin 3 → Nat) a + S1x513x1600.size a ≤ S1x513x1600.size a
  h_S1x513x1600 : 0 < S1x513x1600.numel
  shapeCasts_S1x513x1600_S513x1600 : S1x513x1600.ShapeCasts S513x1600
  reduces_S513x1600_S513 : S513x1600.Reduces [1] S513
  shapeCasts_S513_S513x1 : S513.ShapeCasts S513x1
  reduces_S513x1_S1 : S513x1.Reduces [0] S1
  shapeCasts_S1_S1x1 : S1.ShapeCasts S1x1
  rotates_S513x1600_d0 : S513x1600.Rotates 0 none
  slices_S513x1600_o0_0_S1x1600 : S513x1600.Slices ![0, 0] S1x1600
  reduces_S1x1600_S1 : S1x1600.Reduces [1] S1
  rotates_S513x1600_d1 : S513x1600.Rotates 1 none
  slices_S513x1600_o0_0_S513x1 : S513x1600.Slices ![0, 0] S513x1
  concatenates_S1x1_S1x1_S1x1_S1x3_d1 : Shape.Concatenates [S1x1, S1x1, S1x1] S1x3 1
  concatenates_S1x3_S1x125_S1x128_d1 : Shape.Concatenates [S1x3, S1x125] S1x128 1
  shapeCasts_S1x128_S1x1x128 : S1x128.ShapeCasts S1x1x128
  shapeCasts_S1x1x128_S1x1x128 : S1x1x128.ShapeCasts S1x1x128
  slices_S2x1x128_S2x1x3_0_0_0 : S2x1x128.Slices ![0, 0, 0] S2x1x3
  shapeCasts_S2x1x3_S2x3 : S2x1x3.ShapeCasts S2x3
  reducesTo_S2x3_S3_d0 : S2x3.ReducesTo [0] S3
  h_S_ : 0 < S_.numel
  slices_S3_S1_0 : S3.Slices ![0] S1
  shapeCasts_S1_S_ : S1.ShapeCasts S_
  slices_S3_S1_1 : S3.Slices ![1] S1
  slices_S3_S1_2 : S3.Slices ![2] S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x513x1600.size a ≤ S32x513x1600.size a
  hwx0_0 : ∀ i : grid0.Coords, EltTy.bits .f32 = 32 ∨ (Rect.block (s := S32x513x1600) S1x513x1600.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x513x1600.size a ≤ S32x513x1600.size a
  hwx0_1 : ∀ i : grid0.Coords, EltTy.bits .f32 = 32 ∨ (Rect.block (s := S32x513x1600) S1x513x1600.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S2x1x128.size a
  hwx0_2 : ∀ i : grid0.Coords, EltTy.bits .f32 = 32 ∨ (Rect.block (s := S2x1x128) S1x1x128.size (cc0_transform_2 i) (hinb0_2 i)).WholeWords (EltTy.packing .f32)

variable [Facts₀]

abbrev win0_0 : Pipeline.Window sig grid0 :=
  Pipeline.Window.ofSpec (Memref.whole main_arg0) S1x513x1600.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x513x1600.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x513x1600 : Shape := ⟨3, ![32, 513, 1600]⟩
abbrev S_ : Shape := ⟨0, ![]⟩
abbrev S32x514x1600 : Shape := ⟨3, ![32, 514, 1600]⟩
abbrev S32x513x1601 : Shape := ⟨3, ![32, 513, 1601]⟩

abbrev nBuf : Space → Nat
  | .hbm => 58
  | .vmem => 0
  | .smem => 0
  | _ => 0

abbrev bufTy : (tb : Table) → Fin (tcTables nBuf tb) → BufTy
  | .hbm, ⟨0, _⟩ => ⟨S32x513x1600, .f32⟩
  | .hbm, ⟨1, _⟩ => ⟨S32x513x1600, .f32⟩
  | .hbm, ⟨2, _⟩ => ⟨S32x513x1600, .f32⟩
  | .hbm, ⟨3, _⟩ => ⟨S_, .f32⟩
  | .hbm, ⟨4, _⟩ => ⟨S32x513x1600, .f32⟩
  | .hbm, ⟨5, _⟩ => ⟨S32x513x1600, .f32⟩
  | .hbm, ⟨6, _⟩ => ⟨S32x513x1600, .f32⟩
  | .hbm, ⟨7, _⟩ => ⟨S32x513x1600, .f32⟩
  | .hbm, ⟨8, _⟩ => ⟨S32x513x1600, .f32⟩
  | .hbm, ⟨9, _⟩ => ⟨S_, .f32⟩
  | .hbm, ⟨10, _⟩ => ⟨S32x513x1600, .f32⟩
  | .hbm, ⟨11, _⟩ => ⟨S32x513x1600, .f32⟩
  | .hbm, ⟨12, _⟩ => ⟨S32x513x1600, .f32⟩
  | .hbm, ⟨13, _⟩ => ⟨S32x513x1600, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .i32⟩
  | .hbm, ⟨19, _⟩ => ⟨S_, .f32⟩
  | .hbm, ⟨20, _⟩ => ⟨S32x514x1600, .f32⟩
  | .hbm, ⟨21, _⟩ => ⟨S32x513x1600, .f32⟩
  | .hbm, ⟨22, _⟩ => ⟨S32x513x1600, .f32⟩
  | .hbm, ⟨23, _⟩ => ⟨S_, .f32⟩
  | .hbm, ⟨24, _⟩ => ⟨S32x513x1600, .f32⟩
  | .hbm, ⟨25, _⟩ => ⟨S32x513x1600, .f32⟩
  | .hbm, ⟨26, _⟩ => ⟨S32x513x1600, .f32⟩
  | .hbm, ⟨27, _⟩ => ⟨S32x513x1600, .f32⟩
  | .hbm, ⟨28, _⟩ => ⟨S32x513x1600, .f32⟩
  | .hbm, ⟨29, _⟩ => ⟨S_, .f32⟩
  | .hbm, ⟨30, _⟩ => ⟨S32x513x1600, .f32⟩
  | .hbm, ⟨31, _⟩ => ⟨S32x513x1600, .f32⟩
  | .hbm, ⟨32, _⟩ => ⟨S32x513x1600, .f32⟩
  | .hbm, ⟨33, _⟩ => ⟨S32x513x1600, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .i32⟩
  | .hbm, ⟨39, _⟩ => ⟨S_, .f32⟩
  | .hbm, ⟨40, _⟩ => ⟨S32x513x1601, .f32⟩
  | .hbm, ⟨41, _⟩ => ⟨S32x513x1600, .f32⟩
  | .hbm, ⟨42, _⟩ => ⟨S32x513x1600, .f32⟩
  | .hbm, ⟨43, _⟩ => ⟨S_, .f32⟩
  | .hbm, ⟨44, _⟩ => ⟨S32x513x1600, .f32⟩
  | .hbm, ⟨45, _⟩ => ⟨S32x513x1600, .f32⟩
  | .hbm, ⟨46, _⟩ => ⟨S32x513x1600, .f32⟩
  | .hbm, ⟨47, _⟩ => ⟨S32x513x1600, .f32⟩
  | .hbm, ⟨48, _⟩ => ⟨S32x513x1600, .f32⟩
  | .hbm, ⟨49, _⟩ => ⟨S_, .f32⟩
  | .hbm, ⟨50, _⟩ => ⟨S32x513x1600, .f32⟩
  | .hbm, ⟨51, _⟩ => ⟨S32x513x1600, .f32⟩
  | .hbm, ⟨52, _⟩ => ⟨S32x513x1600, .f32⟩
  | .hbm, ⟨53, _⟩ => ⟨S32x513x1600, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | _, _ => ⟨S32x513x1600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_c : Ref sig .tc := ⟨.hbm, 18, rfl⟩
abbrev main_call1_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_c_7 : Ref sig .tc := ⟨.hbm, 38, rfl⟩
abbrev main_call3_v0 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_10 : Ref sig .tc := ⟨.hbm, 54, rfl⟩
abbrev main_v38 : Ref sig .tc := ⟨.hbm, 55, rfl⟩
abbrev main_cst_11 : Ref sig .tc := ⟨.hbm, 56, rfl⟩
abbrev main_v39 : Ref sig .tc := ⟨.hbm, 57, rfl⟩

abbrev nD : Nat := 1
abbrev τ : Topo := Topo.v7x

variable {F : FTy → Type} [FloatOps F]

class Facts₀ : Prop where
  bcast_S_S32x513x1600 : S_.BroadcastsInDim S32x513x1600 (![] : Fin 0 → Fin S32x513x1600.rank)
  reducesTo_S32x513x1600_S_d0_1_2 : S32x513x1600.ReducesTo [0, 1, 2] S_
  h_S_ : 0 < S_.numel
  pads_S32x513x1600_S32x514x1600_000_100_000 : S32x513x1600.Pads (![0, 1, 0] : Fin 3 → Nat) ![0, 0, 0] ![0, 0, 0] S32x514x1600
  slices_S32x514x1600_S32x513x1600_0_0_0 : S32x514x1600.Slices ![0, 0, 0] S32x513x1600
  pads_S32x513x1600_S32x513x1601_000_000_100 : S32x513x1600.Pads (![0, 0, 1] : Fin 3 → Nat) ![0, 0, 0] ![0, 0, 0] S32x513x1601
  slices_S32x513x1601_S32x513x1600_0_0_0 : S32x513x1601.Slices ![0, 0, 0] S32x513x1600

variable [Facts₀]

class Facts : Prop extends Facts₀ where

variable [Facts]
-- ==== Proof.KernelBody.lean ====
/-
  What one grid point leaves in the output block, as a value.

  The body adds one plane's three partial sums (packed into lanes 0, 1, 2 of a 128-lane row, the other lanes zero)
  to the output block. At the first plane of a core's share the block is first set to zero, so the body leaves
  zero + (the plane's row); at every later plane it leaves (what the plane before left) + (the plane's row).
  Both are the body's one final store, read back through the whole block.
-/
import proofs.«116724_j26448408608917_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

theorem offsets_zero : (![0, 0, 0] : Fin 3 → Nat) = fun _ => 0 := funext fun a => by fin_cases a <;> rfl

/-- The row a plane contributes, added to a block `acc`: the final store's value as a function of the two input
    planes and of the block's contents before. -/
def step (x0 x1 : Vec F S1x513x1600 .f32) (acc : Vec F S1x1x128 .f32) : Vec F S1x1x128 .f32 :=
  k0_pay1 (k0_pay3 x0 x1) (k0_pay4 x0 x1) (k0_pay5 x0 x1) (k0_pay7 x0 x1) (k0_pay8 x0 x1) (k0_pay9 x0 x1) acc

/-- A later plane of a core's share: the block held `xo`, the body leaves `step x0 x1 xo`. -/
theorem out_later (c : Dev nD) (i : grid0.Coords) (a2 : Memref sig .tc .vmem S1x513x1600 .f32) (h2 : a2.IsWhole)
    (a3 : Memref sig .tc .vmem S1x513x1600 .f32) (h3 : a3.IsWhole) (a4 : Memref sig .tc .vmem S1x1x128 .f32) (h4 : a4.IsWhole)
    (hc : ¬cond0_0 i) (x0 x1 : Vec F S1x513x1600 .f32) (xo : Vec F S1x1x128 .f32) :
    out0_B_2 c i a2 h2 a3 h3 a4 h4 hc x0 x1 xo = step x0 x1 xo := by
  unfold out0_B_2 step
  rw [View.read_writes_eq_canon _ _ _ (cover0_B_2 c i a2 h2 a3 h3 a4 h4 hc x0 x1 xo)]
  unfold kernelRun0_B
  dsimp only
  sl_unfold_words
  rw [View.canon_unit_zero offsets_zero]
  simp only [View.readAt_eq_ld, h2.read_unread, h3.read_unread, h4.read_unread,
    View.ld_unit_zero (S := S1x513x1600) offsets_zero, View.ld_unit_zero (S := S1x1x128) offsets_zero]

/-- The first plane of a core's share: the block is set to the zero row first, the body leaves `step x0 x1 zero`. -/
theorem out_first (c : Dev nD) (i : grid0.Coords) (a2 : Memref sig .tc .vmem S1x513x1600 .f32) (h2 : a2.IsWhole)
    (a3 : Memref sig .tc .vmem S1x513x1600 .f32) (h3 : a3.IsWhole) (a4 : Memref sig .tc .vmem S1x1x128 .f32) (h4 : a4.IsWhole)
    (hc : cond0_0 i) (x0 x1 : Vec F S1x513x1600 .f32) :
    out0_A_2 c i a2 h2 a3 h3 a4 h4 hc x0 x1 = step x0 x1 (k0_pay2 (F := F)) := by
  unfold out0_A_2 step
  rw [View.read_writes_eq_canon _ _ _ (cover0_A_2 c i a2 h2 a3 h3 a4 h4 hc x0 x1)]
  unfold kernelRun0_A
  dsimp only
  sl_unfold_words
  rw [View.canon_cons_unit_zero (S := S1x1x128) offsets_zero, View.readCov_unit_zero (S := S1x1x128) _ offsets_zero]
  simp only [View.readAt_eq_ld, h2.read_unread, h3.read_unread,
    View.ld_unit_zero (S := S1x513x1600) offsets_zero, View.ld_unit_zero (S := S1x1x128) offsets_zero]

end Cert.KernelIdeal.Body

end
-- ==== Proof.KernelAcc.lean ====
/-
  The output block after each grid point, on the extended reals.

  One step adds the plane's row to the block, entry by entry; the zero row is zero. So after point n the block
  holds the sum of the rows of the planes of the core's share met so far: the planes n - n % 16, …, n.
-/
import proofs.«116724_j26448408608917_2_alg».proof.Proof.KernelBody
import Idealize.ShloMosaic.PureOps.Ideal.Laws

noncomputable section

open Idealize.ShloMosaic Idealize.ShloMosaic.TcCoe Idealize.SL.Sem

namespace Cert.KernelIdeal.Acc

open Cert.KernelIdeal Cert.KernelIdeal.Gen Cert.KernelIdeal.Body

variable (m : (ℓ : Loc nD τ sig) → Buf (Elt Ideal) ℓ)

/-- The zero row is zero at every entry. -/
theorem zero_row (y : S1x1x128.Idx) : (k0_pay2 (F := Ideal)) y = 0 := by
  show Ideal.ofBits .f32 0x00000000#32 = 0
  exact Ideal.ofBits_zero_f32

/-- One step, entry by entry: what the block held plus the plane's row (the step from the zero row). -/
theorem step_apply (x0 x1 : Vec Ideal S1x513x1600 .f32) (acc : Vec Ideal S1x1x128 .f32) (y : S1x1x128.Idx) :
    step x0 x1 acc y = acc y + step x0 x1 (k0_pay2 (F := Ideal)) y := by
  obtain ⟨B, hB⟩ : ∃ B : S1x1x128.Idx → EReal, ∀ acc' : Vec Ideal S1x1x128 .f32, step x0 x1 acc' = fun y => acc' y + B y :=
    ⟨_, fun acc' => by unfold step k0_pay1; simp only [shapeCast_self]; rfl⟩
  rw [hB acc, hB (k0_pay2 (F := Ideal))]
  show acc y + B y = acc y + ((k0_pay2 (F := Ideal)) y + B y)
  rw [zero_row, zero_add]

/-- The row of the plane met at point p (zero past the grid, where no point is). -/
def rowAt (c : Dev nD) (p : ℕ) : S1x1x128.Idx → EReal :=
  if h : p < cfg0.N then step (iblk m c 0 ⟨p, h⟩) (iblk m c 1 ⟨p, h⟩) (k0_pay2 (F := Ideal)) else fun _ => 0

theorem rowAt_of_lt (c : Dev nD) (p : ℕ) (h : p < cfg0.N) :
    rowAt m c p = step (iblk m c 0 ⟨p, h⟩) (iblk m c 1 ⟨p, h⟩) (k0_pay2 (F := Ideal)) := dif_pos h

/-- After point n the block holds the rows of the planes n - n % 16 … n, summed. -/
theorem outsAt_sum (c : Dev nD) : ∀ (n : ℕ) (h : n < cfg0.N) (y : S1x1x128.Idx),
    outsAt0 m c n h y = ∑ b ∈ Finset.range (n % 16 + 1), rowAt m c (n - n % 16 + b) y
  | 0, h, y => by
    rw [outsAt0_A m c ⟨0, h⟩ rfl, out_first]
    simp only [Nat.zero_mod, Nat.sub_zero, Nat.zero_add, Finset.sum_range_one]
    rw [rowAt_of_lt m c 0 h]
  | n + 1, h, y => by
    by_cases h0 : (n + 1) % 16 = 0
    · rw [outsAt0_A m c ⟨n + 1, h⟩ h0, out_first, h0]
      simp only [Nat.sub_zero, Nat.zero_add, Finset.sum_range_one, Nat.add_zero]
      rw [rowAt_of_lt m c (n + 1) h]
    · rw [outsAt0_B m c ⟨n + 1, h⟩ h0, out_later, step_apply]
      show outsAt0 m c n _ y + _ = _
      rw [outsAt_sum c n _ y]
      have e1 : (n + 1) % 16 = n % 16 + 1 := by omega
      have e2 : n + 1 - (n % 16 + 1) = n - n % 16 := by omega
      have e3 : n - n % 16 + (n % 16 + 1) = n + 1 := by omega
      rw [e1, e2, Finset.sum_range_succ _ (n % 16 + 1), e3, rowAt_of_lt m c (n + 1) h]

end Cert.KernelIdeal.Acc

end
-- ==== Proof.KernelArr.lean ====
/-
  The array of per-core sums after the run.

  Core q's block is written back once, after the last plane of its share (point 16 q + 15), when it holds the sum
  of the rows of the planes 16 q … 16 q + 15. The two blocks tile the [2, 1, 128] array, so entry (q, 0, l) of the
  array ends at the sum over b < 16 of the row of plane 16 q + b at lane l.
-/
import proofs.«116724_j26448408608917_2_alg».proof.Proof.KernelAcc
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Arr

open Cert.KernelIdeal Cert.KernelIdeal.Gen Cert.KernelIdeal.Body Cert.KernelIdeal.Acc

variable (m : (ℓ : Loc nD τ sig) → Buf (Elt Ideal) ℓ)

/-- Where each window's block sits at point t: the inputs' at plane t, the output's at core t / 16. -/
theorem block_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val / 16 ∧ win0_2.index t (1 : Fin 3) = 0 ∧ win0_2.index t (2 : Fin 3) = 0 :=
  (by decide +kernel : ∀ t : Fin grid0.N, _)

/-- The array after the run: entry (q, 0, l) is the sum over the sixteen planes of core q of the plane's row at lane l. -/
def sums (c : Dev nD) : S2x1x128.Idx → EReal := fun i =>
  ∑ b ∈ Finset.range 16, rowAt m c (16 * (i 0).val + b) (ix3 (0 : Fin 1) (0 : Fin 1) (⟨(i 2).val, (i 2).isLt⟩ : Fin 128))

/-- What the write-back at the last plane of a core's share writes is that core's block of `sums`. -/
theorem flushed_eq (c : Dev nD) (t : Fin cfg0.N) (hf : (cfg0.win 2).flush t = true) :
    (dats m 0 c).flushed 2 t = ((cfg0.win 2).blk t).view.read (Elt Ideal) (sums m c) := by
  have h15 : t.val % 16 = 15 := (flush0_2 t).mp hf
  obtain ⟨-, -, -, -, -, -, e0, e1, e2⟩ := block_index t
  show (cfg0.win 2).cut (grid0.coords t) ((dats m 0 c).after 2 t) = _
  rw [after0_2]
  funext y
  show outsAt0 m c t.val t.isLt y = sums m c (((cfg0.win 2).blk t).view.emb y)
  rw [outsAt_sum m c t.val t.isLt y, h15]
  unfold sums
  have hq : (((cfg0.win 2).blk t).view.emb y 0).val = t.val / 16 := by
    show win0_2.index t (0 : Fin 3) * 1 + 1 * (y 0).val = _
    have : (y 0).val < 1 := (y 0).isLt
    omega
  have hl : (((cfg0.win 2).blk t).view.emb y 2).val = (y 2).val := by
    show win0_2.index t (2 : Fin 3) * 128 + 1 * (y 2).val = _
    omega
  have hy : y = ix3 (0 : Fin 1) (0 : Fin 1) (⟨(((cfg0.win 2).blk t).view.emb y 2).val, (((cfg0.win 2).blk t).view.emb y 2).isLt⟩ : Fin 128) := by
    funext a; apply Fin.ext
    match a with
    | ⟨0, _⟩ => show (y 0).val = 0; have : (y 0).val < 1 := (y 0).isLt; omega
    | ⟨1, _⟩ => show (y 1).val = 0; have : (y 1).val < 1 := (y 1).isLt; omega
    | ⟨2, _⟩ => exact hl.symm
  rw [← hy, hq]
  refine Finset.sum_congr rfl fun b _ => ?_
  have : t.val - 15 + b = 16 * (t.val / 16) + b := by omega
  rw [this]

/-- Every entry of the array is in the block written back at the last plane of its core's share. -/
theorem covered (c : Dev nD) (i : S2x1x128.Idx) :
    ∃ t : Fin cfg0.N, (cfg0.win 2).flush t = true ∧ i ∈ ((cfg0.win 2).blk t).view.set := by
  have hN : cfg0.N = 32 := N_0
  have h0 : (i 0).val < 2 := (i 0).isLt
  have h1 : (i 1).val < 1 := (i 1).isLt
  have h2 : (i 2).val < 128 := (i 2).isLt
  let t : Fin cfg0.N := ⟨16 * (i 0).val + 15, by rw [hN]; omega⟩
  have ht : t.val = 16 * (i 0).val + 15 := rfl
  obtain ⟨-, -, -, -, -, -, e0, e1, e2⟩ := block_index t
  refine ⟨t, (flush0_2 t).mpr (by rw [ht]; omega), ?_⟩
  show i ∈ ((View.whole main_v0).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 128 ≤ (i 2).val ∧ (i 2).val < win0_2.index t (2 : Fin 3) * 128 + 128; omega

/-- So the output array ends holding `sums`. -/
theorem final (c : Dev nD) : (dats m 0 c).arrAt 2 cfg0.N = sums m c :=
  (dats m 0 c).arrAt_eq_of_cover 2 (sums m c) (flushed_eq m c) (covered c)

end Cert.KernelIdeal.Arr

end
-- ==== Proof.LibColReduce.lean ====
/-
  A reduction over the FIRST axis of a matrix, read at a coordinate.

  A matrix `[a, b]` summed over its row axis gives, at column `c`, the sum over `r : Fin a` of the entry `(r, c)`:
  the library states the sum over the reduced index with the coordinate re-inserted; here the re-inserted index is
  written by its coordinates. (The companion of the last-axis forms.) Library imports only.
-/
import Idealize.ShloMosaic.PureOps.Ideal.Laws
import Idealize.ShloMosaic.Lib.ValueIdx

noncomputable section

namespace Cert.LibColReduce

open Idealize.ShloMosaic Idealize.ShloMosaic.ValueIdx

variable {φ : FTy}

/-- Column `c` with row `r` put back is the entry `(r, c)`. -/
theorem lift_col {a b : ℕ} (h : (⟨2, ![a, b]⟩ : Shape).Reduces [0] ⟨1, ![b]⟩) (c : Fin b) (r : Fin a) :
    h.lift (ix1 c) r = ix2 r c := by
  funext d; apply Fin.ext
  fin_cases d <;> rfl

/-- A sum of a matrix down its rows, at column `c`: the sum of the column's entries. -/
theorem multiReduction_add_col {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ r : Fin a, src (ix2 r c) :=
  (Ideal.multiReduction_add_single src acc h hφ hacc (ix1 c)).trans
    (Finset.sum_congr rfl fun r _ => congrArg src (lift_col h c r))

end Cert.LibColReduce

end
-- ==== Proof.KernelTail.lean ====
/-
  The lines after the region: from the array of per-core sums to the three means.

  The host keeps lanes 0, 1, 2 of the two cores' rows, adds the two rows, and divides each of the three totals by
  the number of entries of an input. So result k is (0 + (row 0 at lane k + row 1 at lane k)) / count.
-/
import proofs.«116724_j26448408608917_2_alg».proof.Proof.KernelArr
import proofs.«116724_j26448408608917_2_alg».proof.Proof.LibColReduce
import Idealize.ShloMosaic.Lib.StableHlo.Run
import Idealize.ShloMosaic.Lib.Pipeline.FrameSuffix
import Idealize.ShloMosaic.Lib.Pipeline.Value
import Idealize.ShloMosaic.PureOps.Ideal.Laws

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Tail

open Cert.KernelIdeal Cert.KernelIdeal.Gen Cert.KernelIdeal.Arr

variable (m : (ℓ : Loc nD τ sig) → Buf (Elt Ideal) ℓ)

/-- The lines after the region as one function of the array of per-core sums: lanes 0–2 kept, the two rows added, the
    total at lane `off` divided by the count. -/
def mean (off : Fin 1 → Nat) (hs : S3.Slices off S1) (A : (⟨S2x1x128, .f32⟩ : BufTy).Contents (Elt Ideal)) :
    (⟨S_, .f32⟩ : BufTy).Contents (Elt Ideal) :=
  Host.divf (F := Ideal) (shapeCast S_ (extractStridedSlice S1 off
      (Host.reduceAdd (F := Ideal) (shapeCast S2x3 (extractStridedSlice S2x1x3 ![0, 0, 0] A slices_S2x1x128_S2x1x3_0_0_0) shapeCasts_S2x1x3_S2x3)
        (constant (F := Ideal) S_ .f32 0x00000000#32) reducesTo_S2x3_S3_d0 h_S_) hs) shapeCasts_S1_S_)
    (constant (F := Ideal) S_ .f32 0x4BC86400#32)

/-- The array the lines after the region read is the array of per-core sums. -/
theorem array_eq (c : Dev nD) :
    Pipeline.withArrays (cfgs 0).spec c (V0 m c) (fun w => (dats m 0 c).arrAt w (cfgs 0).N) (Proc.tc.devRef main_v0) = sums m c :=
  (Pipeline.withArrays_arr spec0 launch0.win.arr_inj c _ _ 2).trans (final m c)

theorem result0 (c : Dev nD) :
    Pipeline.afterTail₀ cfgs (dats m) 0 (V0 m) [hostOps1] c main_v6 = mean ![0] slices_S3_S1_0 (sums m c) := by
  unfold Pipeline.afterTail₀
  show StableHlo.after hostOps1 _ (Proc.devRef .tc main_v6) = _
  after_results
  exact congrArg (mean ![0] slices_S3_S1_0) (array_eq m c)

theorem result1 (c : Dev nD) :
    Pipeline.afterTail₀ cfgs (dats m) 0 (V0 m) [hostOps1] c main_v9 = mean ![1] slices_S3_S1_1 (sums m c) := by
  unfold Pipeline.afterTail₀
  show StableHlo.after hostOps1 _ (Proc.devRef .tc main_v9) = _
  after_results
  exact congrArg (mean ![1] slices_S3_S1_1) (array_eq m c)

theorem result2 (c : Dev nD) :
    Pipeline.afterTail₀ cfgs (dats m) 0 (V0 m) [hostOps1] c main_v12 = mean ![2] slices_S3_S1_2 (sums m c) := by
  unfold Pipeline.afterTail₀
  show StableHlo.after hostOps1 _ (Proc.devRef .tc main_v12) = _
  after_results
  exact congrArg (mean ![2] slices_S3_S1_2) (array_eq m c)

/-- The mean at lane k, at its one index: (0 + (A (0,0,k) + A (1,0,k))) / count. -/
theorem mean_apply (k : Fin 3) (hs : S3.Slices ![k.val] S1) (A : (⟨S2x1x128, .f32⟩ : BufTy).Contents (Elt Ideal)) (i : S_.Idx) :
    mean ![k.val] hs A i
      = Ideal.div (Ideal.ofBits .f32 0x00000000#32
          + ∑ q : Fin 2, A (ix3 q (0 : Fin 1) (⟨k.val, by have := k.isLt; omega⟩ : Fin 128)))
        (Ideal.ofBits .f32 0x4BC86400#32) := by
  unfold mean
  show Ideal.div (shapeCast S_ _ shapeCasts_S1_S_ i) (Ideal.ofBits .f32 0x4BC86400#32) = _
  congr 1
  rw [shapeCast_apply _ shapeCasts_S1_S_ i (ix1 (0 : Fin 1)) (by
    rw [Shape.rowMajor_val_one]; rfl)]
  rw [extractStridedSlice_apply ![k.val] _ hs (ix1 (0 : Fin 1)) (ix1 k) (by
    intro a; match a with | ⟨0, _⟩ => show k.val = k.val + 0; omega)]
  simp only [Host.reduceAdd, Ideal.hostReduceAdd_def]
  have hR : S2x3.Reduces [0] S3 := by decide
  rw [Ideal.hostReduceAdd_single reducesTo_S2x3_S3_d0 hR _ _ (ix1 k)]
  show Ideal.ofBits .f32 0x00000000#32 + (∑ q : Fin 2, _) = _
  congr 1
  refine Finset.sum_congr rfl fun (q : Fin 2) _ => ?_
  have hl : hR.lift (ix1 k) q = ix2 q k := Cert.LibColReduce.lift_col (a := 2) (b := 3) hR k q
  rw [hl]
  rw [shapeCast_apply _ shapeCasts_S2x1x3_S2x3 (ix2 q k) (ix3 q (0 : Fin 1) k) (by
    rw [Shape.rowMajor_val_two, Shape.rowMajor_val_three]
    show (q.val * 1 + 0) * 3 + k.val = q.val * 3 + k.val; omega)]
  exact extractStridedSlice_apply ![0, 0, 0] A slices_S2x1x128_S2x1x3_0_0_0 (ix3 q (0 : Fin 1) k)
    (ix3 q (0 : Fin 1) (⟨k.val, by have := k.isLt; omega⟩ : Fin 128)) (by
    intro a
    match a with
    | ⟨0, _⟩ => show q.val = 0 + q.val; omega
    | ⟨1, _⟩ => show (0 : ℕ) = 0 + 0; omega
    | ⟨2, _⟩ => show k.val = 0 + k.val; omega)

end Cert.KernelIdeal.Tail

end
-- ==== Proof.WrapLaw.lean ====
/-
  The distance of a real number to the nearest multiple of a period, and its two spellings on the extended reals.

  w c a = |a - round(a / c) * c|, the rounding to nearest with ties to even. Rounding to nearest-even is an odd
  function, so w c (-a) = w c a. On a real entry the two programs' spellings both compute w: one rounds the
  quotient directly; the other writes the rounded quotient as y + (round y - y), which is round y because the
  quotient y of reals by a nonzero real is real.
-/
import Idealize.ShloMosaic.PureOps.Ideal
import Mathlib.Tactic

noncomputable section

namespace Cert.WrapLaw

open Idealize.ShloMosaic

/-- Rounding to nearest, ties to even, commutes with negation. -/
theorem roundHalfEven_neg (r : ℝ) : Ideal.roundHalfEven (-r) = -Ideal.roundHalfEven r := by
  unfold Ideal.roundHalfEven
  dsimp only
  have hle : (⌊r⌋ : ℝ) ≤ r := Int.floor_le r
  have hlt : r < (⌊r⌋ : ℝ) + 1 := Int.lt_floor_add_one r
  by_cases hint : (⌊r⌋ : ℝ) = r
  · have h1 : ⌊-r⌋ = -⌊r⌋ := by
      rw [Int.floor_eq_iff]; push_cast; constructor <;> linarith
    rw [h1]
    have e1 : -r - ((-⌊r⌋ : ℤ) : ℝ) = 0 := by push_cast; linarith
    have e2 : r - (⌊r⌋ : ℝ) = 0 := by linarith
    rw [e1, e2]
    norm_num
  · have hlt' : (⌊r⌋ : ℝ) < r := lt_of_le_of_ne hle hint
    have h1 : ⌊-r⌋ = -⌊r⌋ - 1 := by
      rw [Int.floor_eq_iff]; push_cast; constructor <;> linarith
    rw [h1]
    have e1 : -r - ((-⌊r⌋ - 1 : ℤ) : ℝ) = 1 - (r - (⌊r⌋ : ℝ)) := by push_cast; ring
    rw [e1]
    have hpar : Even (-⌊r⌋ - 1) ↔ ¬Even ⌊r⌋ := by
      rw [Int.even_sub, even_neg]; simp
    rcases lt_trichotomy (r - (⌊r⌋ : ℝ)) (1 / 2) with h | h | h
    · rw [if_neg (show ¬(1 - (r - (⌊r⌋ : ℝ)) < 1 / 2) by linarith),
        if_pos (show 1 / 2 < 1 - (r - (⌊r⌋ : ℝ)) by linarith), if_pos h]; ring
    · rw [if_neg (show ¬(1 - (r - (⌊r⌋ : ℝ)) < 1 / 2) by linarith),
        if_neg (show ¬(1 / 2 < 1 - (r - (⌊r⌋ : ℝ))) by linarith),
        if_neg (show ¬(r - (⌊r⌋ : ℝ) < 1 / 2) by linarith), if_neg (show ¬(1 / 2 < r - (⌊r⌋ : ℝ)) by linarith)]
      by_cases hev : Even ⌊r⌋
      · rw [if_neg (hpar.not.mpr (not_not.mpr hev)), if_pos hev]; ring
      · rw [if_pos (hpar.mpr hev), if_neg hev]; ring
    · rw [if_pos (show 1 - (r - (⌊r⌋ : ℝ)) < 1 / 2 by linarith),
        if_neg (show ¬(r - (⌊r⌋ : ℝ) < 1 / 2) by linarith), if_pos h]; ring

/-- The distance of `a` to the nearest multiple of `c`. -/
def w (c a : ℝ) : ℝ := |a - (Ideal.roundHalfEven (a / c) : ℝ) * c|

theorem w_neg (c a : ℝ) : w c (-a) = w c a := by
  unfold w
  rw [neg_div, roundHalfEven_neg]
  have : -a - ((-Ideal.roundHalfEven (a / c) : ℤ) : ℝ) * c = -(a - (Ideal.roundHalfEven (a / c) : ℝ) * c) := by
    push_cast; ring
  rw [this, abs_neg]

theorem w_zero_sub (c a : ℝ) : w c (0 - a) = w c a := by rw [zero_sub, w_neg]

/-- The quotient of a real by a nonzero real, on the extended reals. -/
theorem div_coe_coe {c : ℝ} (hc : c ≠ 0) (a : ℝ) : Ideal.div (a : EReal) (c : EReal) = ((a / c : ℝ) : EReal) := by
  rw [Ideal.div_coe hc, ← EReal.coe_mul, mul_one_div]

/-- |p| as the maximum of p and -p, on the extended reals. -/
theorem max_neg_coe (p : ℝ) : max (p : EReal) (-(p : EReal)) = ((|p| : ℝ) : EReal) := by
  rw [← EReal.coe_neg, abs_eq_max_neg]
  exact (EReal.coe_strictMono.monotone.map_max).symm

/-- The spelling that rounds the quotient directly: |z - round(z / c) * c| on the extended reals. -/
def direct (c z : EReal) : EReal :=
  max (z - Ideal.liftRound Ideal.roundHalfEven (Ideal.div z c) * c) (-(z - Ideal.liftRound Ideal.roundHalfEven (Ideal.div z c) * c))

/-- The spelling that writes the rounded quotient y as y + (round y - y). -/
def detour (c z : EReal) : EReal :=
  max (z - (Ideal.div z c + (Ideal.liftRound Ideal.roundHalfEven (Ideal.div z c) - Ideal.div z c)) * c)
    (-(z - (Ideal.div z c + (Ideal.liftRound Ideal.roundHalfEven (Ideal.div z c) - Ideal.div z c)) * c))

theorem direct_coe {c : ℝ} (hc : c ≠ 0) (a : ℝ) : direct (c : EReal) (a : EReal) = ((w c a : ℝ) : EReal) := by
  unfold direct
  rw [div_coe_coe hc, Ideal.liftRound_coe, ← EReal.coe_mul, ← EReal.coe_sub, max_neg_coe]
  rfl

theorem detour_coe {c : ℝ} (hc : c ≠ 0) (a : ℝ) : detour (c : EReal) (a : EReal) = ((w c a : ℝ) : EReal) := by
  unfold detour
  rw [div_coe_coe hc, Ideal.liftRound_coe, ← EReal.coe_sub, ← EReal.coe_add, add_sub_cancel, ← EReal.coe_mul, ← EReal.coe_sub,
    max_neg_coe]
  rfl

/-- A finite sum of real numbers, on the extended reals. -/
theorem coe_sum {ι : Type*} (s : Finset ι) (g : ι → ℝ) :
    (∑ k ∈ s, ((g k : ℝ) : EReal)) = ((∑ k ∈ s, g k : ℝ) : EReal) := by
  classical
  induction s using Finset.induction_on with
  | empty => simp
  | insert a s ha ih => rw [Finset.sum_insert ha, Finset.sum_insert ha, ih, EReal.coe_add]

/-- The period's word, 0x40C90FDB, denotes a positive real number. -/
theorem period_real : ∃ c : ℝ, c ≠ 0 ∧ Ideal.ofBits .f32 0x40C90FDB#32 = (c : EReal) := by
  refine ⟨_, ?_, by simp [Ideal.ofBits, Ideal.ieee]; rfl⟩
  positivity

end Cert.WrapLaw

end
-- ==== Proof.LibRowReduce.lean ====
/-
  Reductions over the LAST axis, read at coordinates.

  A matrix `[a, b]` reduced over its lane axis gives, at row `r`, the sum / the fold of `max` / the fold of `min` over
  `k : Fin b` of the entry `(r, k)`; a rank-3 array `[n0, n1, n2]` reduced on the host over its last axis gives, at
  `(i, j)`, the fold of the reduce's body from the initial value over `k : Fin n2` of the entry `(i, j, k)`. The library
  states these over the reduced index with the coordinate re-inserted (`Shape.Reduces.lift`); here the re-inserted
  index is written by its coordinates, so that both readings of one row meet as folds of one function on `Fin b`.
  Library imports only.
-/
import Idealize.ShloMosaic.PureOps.Ideal.Laws
import Idealize.ShloMosaic.Lib.ValueIdx

noncomputable section

namespace Cert.LibRowReduce

open Idealize.ShloMosaic Idealize.ShloMosaic.ValueIdx

variable {φ : FTy}

/-- Row `r` with lane `k` put back is the entry `(r, k)`. -/
theorem lift_row {a b : ℕ} (h : (⟨2, ![a, b]⟩ : Shape).Reduces [1] ⟨1, ![a]⟩) (r : Fin a) (k : Fin b) :
    h.lift (ix1 r) k = ix2 r k := by
  funext c; apply Fin.ext
  fin_cases c <;> rfl

/-- A lane sum of a matrix at row `r`: the sum of the row's entries. -/
theorem multiReduction_add_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- A lane maximum of a matrix at row `r`: the fold of `max` from the accumulator's value over the row's entries. -/
theorem multiReduction_max_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) fun k => src (ix2 r k) :=
  (Ideal.multiReduction_maximumf_single src acc h hφ hacc (ix1 r)).trans
    (congrArg (fun f => Finset.fold max (Ideal.ofBits φ acc) f (Finset.univ : Finset (Fin b)))
      (funext fun k => congrArg src (lift_row h r k)))

/-- A lane minimum of a matrix at row `r`: the fold of `min` from the accumulator's value over the row's entries. -/
theorem multiReduction_min_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (r : Fin a) :
    multiReduction .minimumf [1] ⟨1, ![a]⟩ src acc h hφ hacc (ix1 r)
      = (Finset.univ : Finset (Fin b)).fold min (Ideal.ofBits φ acc) fun k => src (ix2 r k) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- Index `(i, j)` with the last coordinate `k` put back is the entry `(i, j, k)`. -/
theorem lift_last3 {n0 n1 n2 : ℕ} (h : (⟨3, ![n0, n1, n2]⟩ : Shape).Reduces [2] ⟨2, ![n0, n1]⟩) (i : Fin n0) (j : Fin n1)
    (k : Fin n2) : h.lift (ix2 i j) k = ix3 i j k := by
  funext c; apply Fin.ext
  fin_cases c <;> rfl

/-- The host's reduce of a rank-3 array over its last axis by a commutative, associative body, at `(i, j)`: the fold from
    the initial value over the entries `(i, j, k)`. -/
theorem hostReduce_last3 {α : Type} {n0 n1 n2 : ℕ} {u : Shape} (f : α → α → α) [Std.Commutative f] [Std.Associative f]
    (x : (⟨3, ![n0, n1, n2]⟩ : Shape).Idx → α) (init : u.Idx → α)
    (h' : (⟨3, ![n0, n1, n2]⟩ : Shape).ReducesTo [2] ⟨2, ![n0, n1]⟩) (h : (⟨3, ![n0, n1, n2]⟩ : Shape).Reduces [2] ⟨2, ![n0, n1]⟩)
    (hu : 0 < u.numel) (i : Fin n0) (j : Fin n1) :
    Host.reduce f x init h' hu (ix2 i j)
      = (Finset.univ : Finset (Fin n2)).fold f (init (Shape.Idx.first hu)) fun k => x (ix3 i j k) :=
  (Host.reduce_eq_fold_single f x init h' h hu (ix2 i j)).trans
    (congrArg (fun g => Finset.fold f (init (Shape.Idx.first hu)) g (Finset.univ : Finset (Fin n2)))
      (funext fun k => congrArg x (lift_last3 h i j k)))

/-- The host's float sum of a rank-3 array over its last axis, at `(i, j)`: the initial value plus the entries' sum. -/
theorem hostReduceAdd_last3 {n0 n1 n2 : ℕ} (x : (⟨3, ![n0, n1, n2]⟩ : Shape).Idx → EReal) (init : EReal)
    (h' : (⟨3, ![n0, n1, n2]⟩ : Shape).ReducesTo [2] ⟨2, ![n0, n1]⟩) (h : (⟨3, ![n0, n1, n2]⟩ : Shape).Reduces [2] ⟨2, ![n0, n1]⟩)
    (i : Fin n0) (j : Fin n1) :
    Ideal.hostReduceAdd h' x init (ix2 i j) = init + ∑ k : Fin n2, x (ix3 i j k) :=
  (Ideal.hostReduceAdd_single h' h x init (ix2 i j)).trans
    (congrArg (init + ·) (Finset.sum_congr rfl fun k _ => congrArg x (lift_last3 h i j k)))

end Cert.LibRowReduce

end
-- ==== Proof.LibColumnLayout.lean ====
/-
  Two layout operations on a column, read at an index: the forms a row sum kept as a column goes through before it meets a
  full matrix. (The library has the row forms `[a] → [1, a]` and `[1, b] → [a, b]`; these are their column counterparts.)
  Library imports only.
-/
import Idealize.ShloMosaic.Lib.ValueIdx
import Idealize.ShloMosaic.Lib.ValueLayout
import Idealize.ShloMosaic.Lib.Pipeline.Value

namespace Cert.LibColumnLayout

open Idealize.ShloMosaic Idealize.ShloMosaic.ValueIdx

/-- An `[a]` array cast to `[a, 1]` reads, at `(i, u)`, the operand at `i`, whatever the unit coordinate `u`: both indices
    have row-major position `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`, whatever `c`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnLayout
-- ==== Proof.LibConcatPair.lean ====
/-
  Two arrays laid side by side along one axis, read at an entry.

  Two matrices [n, a] and [n, b] concatenated along their columns give [n, c], with c = a + b by the concatenation's own
  side condition: column q < a is column q of the first, column a + j is column j of the second. The same for two
  vectors of a and b entries concatenated into one of c. Library imports only.
-/
import Idealize.ShloMosaic.Lib.Pipeline.Value
import Idealize.ShloMosaic.Lib.ValueIdx

noncomputable section

namespace Cert.LibConcatPair

open Idealize.ShloMosaic Idealize.ShloMosaic.ValueIdx

variable {α : Type}

/-- A column of the left matrix: entry (k, q) of the pair, for q = j below the first extent, is entry (k, j) of the
    first. -/
theorem cols_left {n a b c : ℕ} (x : (⟨2, ![n, a]⟩ : Shape).Idx → α) (y : (⟨2, ![n, b]⟩ : Shape).Idx → α)
    (hc : Shape.Concatenates [(⟨2, ![n, a]⟩ : Shape), ⟨2, ![n, b]⟩] ⟨2, ![n, c]⟩ 1)
    (k : Fin n) (j : Fin a) (q : Fin c) (hq : q.val = j.val) :
    concatenate ⟨2, ![n, c]⟩ 1 [⟨⟨2, ![n, a]⟩, x⟩, ⟨⟨2, ![n, b]⟩, y⟩] hc (ix2 k q) = x (ix2 k j) :=
  concatenate_pair_apply_left 1 x y hc (ix2 k q) rfl (ix2 k j) (fun d => by
    match d with
    | ⟨0, _⟩ => rfl
    | ⟨1, _⟩ => exact hq.symm)

/-- A column of the right matrix: entry (k, q) of the pair, for q = a + j, is entry (k, j) of the second. -/
theorem cols_right {n a b c : ℕ} (x : (⟨2, ![n, a]⟩ : Shape).Idx → α) (y : (⟨2, ![n, b]⟩ : Shape).Idx → α)
    (hc : Shape.Concatenates [(⟨2, ![n, a]⟩ : Shape), ⟨2, ![n, b]⟩] ⟨2, ![n, c]⟩ 1)
    (k : Fin n) (j : Fin b) (q : Fin c) (hq : q.val = a + j.val) :
    concatenate ⟨2, ![n, c]⟩ 1 [⟨⟨2, ![n, a]⟩, x⟩, ⟨⟨2, ![n, b]⟩, y⟩] hc (ix2 k q) = y (ix2 k j) :=
  concatenate_pair_apply_right 1 x y hc (ix2 k q) rfl rfl (ix2 k j) (fun d hd => by
    match d, hd with
    | ⟨0, _⟩, _ => rfl
    | ⟨1, _⟩, hd => exact (hd (Fin.ext rfl)).elim) (by show j.val + a = q.val; omega)

/-- An entry of the left vector. -/
theorem vec_left {a b c : ℕ} (x : (⟨1, ![a]⟩ : Shape).Idx → α) (y : (⟨1, ![b]⟩ : Shape).Idx → α)
    (hc : Shape.Concatenates [(⟨1, ![a]⟩ : Shape), ⟨1, ![b]⟩] ⟨1, ![c]⟩ 0)
    (j : Fin a) (q : Fin c) (hq : q.val = j.val) :
    concatenate ⟨1, ![c]⟩ 0 [⟨⟨1, ![a]⟩, x⟩, ⟨⟨1, ![b]⟩, y⟩] hc (ix1 q) = x (ix1 j) :=
  concatenate_pair_apply_left 0 x y hc (ix1 q) rfl (ix1 j) (fun d => by
    match d with
    | ⟨0, _⟩ => exact hq.symm)

/-- An entry of the right vector. -/
theorem vec_right {a b c : ℕ} (x : (⟨1, ![a]⟩ : Shape).Idx → α) (y : (⟨1, ![b]⟩ : Shape).Idx → α)
    (hc : Shape.Concatenates [(⟨1, ![a]⟩ : Shape), ⟨1, ![b]⟩] ⟨1, ![c]⟩ 0)
    (j : Fin b) (q : Fin c) (hq : q.val = a + j.val) :
    concatenate ⟨1, ![c]⟩ 0 [⟨⟨1, ![a]⟩, x⟩, ⟨⟨1, ![b]⟩, y⟩] hc (ix1 q) = y (ix1 j) :=
  concatenate_pair_apply_right 0 x y hc (ix1 q) rfl rfl (ix1 j) (fun d hd => by
    match d, hd with
    | ⟨0, _⟩, hd => exact (hd (Fin.ext rfl)).elim) (by show j.val + a = q.val; omega)

end Cert.LibConcatPair

end
-- ==== Proof.KernelLanes.lean ====
/-
  The row one plane contributes, lane by lane.

  With D the plane's difference x0 - x1 (a [513, 1600] matrix) and u z = |z - round(z / c) * c| entry by entry:
    lane 0 is the sum of u D over the whole plane;
    lane 1 is (the sum over the plane of u (D rotated one place down the rows - D)) - (row 0 of the same) + (row 0 of u D);
    lane 2 is the same along the columns, with column 0 in place of row 0.
  The sums are the body's two-stage reductions (along the lanes, then down the rows), read here as double sums over
  the coordinates; the three numbers sit in lanes 0, 1, 2 of a 128-lane row through two concatenations.
-/
import proofs.«116724_j26448408608917_2_alg».proof.Proof.KernelBody
import proofs.«116724_j26448408608917_2_alg».proof.Proof.WrapLaw
import proofs.«116724_j26448408608917_2_alg».proof.Proof.LibRowReduce
import proofs.«116724_j26448408608917_2_alg».proof.Proof.LibColReduce
import proofs.«116724_j26448408608917_2_alg».proof.Proof.LibColumnLayout
import proofs.«116724_j26448408608917_2_alg».proof.Proof.LibConcatPair
import Idealize.ShloMosaic.Lib.ValueIdx
import Idealize.ShloMosaic.Lib.KernelVsHost
import Idealize.ShloMosaic.Lib.Pipeline.Value
import Idealize.ShloMosaic.PureOps.Ideal.Laws

noncomputable section

open Idealize.ShloMosaic Idealize.ShloMosaic.TcCoe Idealize.SL.Sem Idealize.ShloMosaic.ValueIdx

namespace Cert.KernelIdeal.Lanes

open Cert.KernelIdeal Cert.KernelIdeal.Gen Cert.KernelIdeal.Body Cert.WrapLaw

abbrev periodW : EReal := Ideal.ofBits .f32 0x40C90FDB#32

/-- The sum of every entry of a plane: along the lanes, then down the rows. -/
def total (v : FVec Ideal S513x1600 .f32) : FVec Ideal S1x1 .f32 :=
  shapeCast S1x1 (multiReduction .add [0] S1
    (shapeCast S513x1 (multiReduction .add [1] S513 v 0x00000000#32 reduces_S513x1600_S513 (.inl rfl) rfl) shapeCasts_S513_S513x1)
    0x00000000#32 reduces_S513x1_S1 (.inl rfl) rfl) shapeCasts_S1_S1x1

/-- The sum of row 0 of a plane. -/
def rowTotal (v : FVec Ideal S513x1600 .f32) : FVec Ideal S1x1 .f32 :=
  shapeCast S1x1 (multiReduction .add [1] S1 (extractStridedSlice S1x1600 ![0, 0] v slices_S513x1600_o0_0_S1x1600)
    0x00000000#32 reduces_S1x1600_S1 (.inl rfl) rfl) shapeCasts_S1_S1x1

/-- The sum of column 0 of a plane. -/
def colTotal (v : FVec Ideal S513x1600 .f32) : FVec Ideal S1x1 .f32 :=
  shapeCast S1x1 (multiReduction .add [0] S1 (extractStridedSlice S513x1 ![0, 0] v slices_S513x1600_o0_0_S513x1)
    0x00000000#32 reduces_S513x1_S1 (.inl rfl) rfl) shapeCasts_S1_S1x1

theorem total_apply (v : FVec Ideal S513x1600 .f32) :
    total v (ix2 (0 : Fin 1) (0 : Fin 1)) = ∑ r : Fin 513, ∑ t : Fin 1600, v (ix2 r t) := by
  unfold total
  refine (Cert.LibColumnLayout.shapeCast_a_a1_apply (a := 1) _ shapeCasts_S1_S1x1 0 0).trans ?_
  refine (Cert.LibColReduce.multiReduction_add_col (a := 513) (b := 1) _ _ reduces_S513x1_S1 _ _ 0).trans ?_
  refine Finset.sum_congr rfl fun r _ => ?_
  refine (Cert.LibColumnLayout.shapeCast_a_a1_apply (a := 513) _ shapeCasts_S513_S513x1 r 0).trans ?_
  exact Cert.LibRowReduce.multiReduction_add_row (a := 513) (b := 1600) v _ reduces_S513x1600_S513 _ _ r

theorem rowTotal_apply (v : FVec Ideal S513x1600 .f32) :
    rowTotal v (ix2 (0 : Fin 1) (0 : Fin 1)) = ∑ t : Fin 1600, v (ix2 (0 : Fin 513) t) := by
  unfold rowTotal
  refine (Cert.LibColumnLayout.shapeCast_a_a1_apply (a := 1) _ shapeCasts_S1_S1x1 0 0).trans ?_
  refine (Cert.LibRowReduce.multiReduction_add_row (a := 1) (b := 1600) _ _ reduces_S1x1600_S1 _ _ 0).trans ?_
  refine Finset.sum_congr rfl fun t _ => ?_
  exact extractStridedSlice_apply ![0, 0] v slices_S513x1600_o0_0_S1x1600 (ix2 (0 : Fin 1) t) (ix2 (0 : Fin 513) t) (by
    intro a
    match a with
    | ⟨0, _⟩ => show (0 : ℕ) = 0 + 0; omega
    | ⟨1, _⟩ => show t.val = 0 + t.val; omega)

theorem colTotal_apply (v : FVec Ideal S513x1600 .f32) :
    colTotal v (ix2 (0 : Fin 1) (0 : Fin 1)) = ∑ r : Fin 513, v (ix2 r (0 : Fin 1600)) := by
  unfold colTotal
  refine (Cert.LibColumnLayout.shapeCast_a_a1_apply (a := 1) _ shapeCasts_S1_S1x1 0 0).trans ?_
  refine (Cert.LibColReduce.multiReduction_add_col (a := 513) (b := 1) _ _ reduces_S513x1_S1 _ _ 0).trans ?_
  refine Finset.sum_congr rfl fun r _ => ?_
  exact extractStridedSlice_apply ![0, 0] v slices_S513x1600_o0_0_S513x1 (ix2 r (0 : Fin 1)) (ix2 r (0 : Fin 1600)) (by
    intro a
    match a with
    | ⟨0, _⟩ => show r.val = 0 + r.val; omega
    | ⟨1, _⟩ => show (0 : ℕ) = 0 + 0; omega)

/-- u entry by entry: the distance to the nearest multiple of the period, in the spelling that rounds the quotient. -/
def wrapped (e : FVec Ideal S513x1600 .f32) : FVec Ideal S513x1600 .f32 :=
  absf (subf e (mulf (roundeven (divf e (broadcast S513x1600 (Scalar.ofBits .f32 0x40C90FDB#32))))
    (broadcast S513x1600 (Scalar.ofBits .f32 0x40C90FDB#32))))

theorem wrapped_apply (e : FVec Ideal S513x1600 .f32) (j : S513x1600.Idx) : wrapped e j = direct periodW (e j) := rfl

/-- The plane's difference. -/
abbrev planeDiff (x0 x1 : Vec Ideal S1x513x1600 .f32) : FVec Ideal S513x1600 .f32 := k0_pay3 x0 x1

/-- D rotated one place down the rows, minus D. -/
def downRows (d : FVec Ideal S513x1600 .f32) : FVec Ideal S513x1600 .f32 :=
  subf (dynamicRotate 0 1#32 none d rotates_S513x1600_d0) d

/-- D rotated one place along the columns, minus D. -/
def alongCols (d : FVec Ideal S513x1600 .f32) : FVec Ideal S513x1600 .f32 :=
  subf (dynamicRotate 1 1#32 none d rotates_S513x1600_d1) d

def lane0 (d : FVec Ideal S513x1600 .f32) : FVec Ideal S1x1 .f32 := total (wrapped d)
def lane1 (d : FVec Ideal S513x1600 .f32) : FVec Ideal S1x1 .f32 :=
  addf (subf (total (wrapped (downRows d))) (rowTotal (wrapped (downRows d)))) (rowTotal (wrapped d))
def lane2 (d : FVec Ideal S513x1600 .f32) : FVec Ideal S1x1 .f32 :=
  addf (subf (total (wrapped (alongCols d))) (colTotal (wrapped (alongCols d)))) (colTotal (wrapped d))

/-- The three numbers side by side. -/
def three (d : FVec Ideal S513x1600 .f32) : FVec Ideal S1x3 .f32 :=
  concatenate S1x3 1 [⟨S1x1, lane0 d⟩, ⟨S1x1, lane1 d⟩, ⟨S1x1, lane2 d⟩] concatenates_S1x1_S1x1_S1x1_S1x3_d1

/-- The plane's row: the three numbers, then 125 zeros. -/
def planeRow (d : FVec Ideal S513x1600 .f32) : FVec Ideal S1x1x128 .f32 :=
  shapeCast S1x1x128 (concatenate S1x128 1 [⟨S1x3, three d⟩, ⟨S1x125, broadcast S1x125 (Scalar.ofBits .f32 0x00000000#32)⟩]
    concatenates_S1x3_S1x125_S1x128_d1) shapeCasts_S1x128_S1x1x128

/-- One step is the block's contents plus the plane's row. -/
theorem step_eq (x0 x1 : Vec Ideal S1x513x1600 .f32) (acc : Vec Ideal S1x1x128 .f32) :
    step x0 x1 acc = addf (shapeCast S1x1x128 acc shapeCasts_S1x1x128_S1x1x128) (planeRow (planeDiff x0 x1)) := rfl

/-- The plane's row at lane l < 3 is the l-th of the three numbers. -/
theorem planeRow_apply (d : FVec Ideal S513x1600 .f32) (l : Fin 3) :
    planeRow d (ix3 (0 : Fin 1) (0 : Fin 1) (⟨l.val, by have := l.isLt; omega⟩ : Fin 128)) = three d (ix2 (0 : Fin 1) l) := by
  unfold planeRow
  refine (shapeCast_apply _ shapeCasts_S1x128_S1x1x128 _ (ix2 (0 : Fin 1) (⟨l.val, by have := l.isLt; omega⟩ : Fin 128)) (by
    rw [Shape.rowMajor_val_two, Shape.rowMajor_val_three]
    show 0 * 128 + l.val = (0 * 1 + 0) * 128 + l.val; omega)).trans ?_
  exact Cert.LibConcatPair.cols_left (n := 1) (a := 3) (b := 125) (c := 128) _ _ concatenates_S1x3_S1x125_S1x128_d1 0 l _ rfl

/-- The three numbers out of their concatenation. -/
theorem three_zero (d : FVec Ideal S513x1600 .f32) : three d (ix2 (0 : Fin 1) (0 : Fin 3)) = lane0 d (ix2 (0 : Fin 1) (0 : Fin 1)) := by
  unfold three
  exact concatenate_apply_piece (t := S1x3) (1 : Fin 2)
    ([⟨S1x1, lane0 d⟩, ⟨S1x1, lane1 d⟩, ⟨S1x1, lane2 d⟩] : List ((s : Shape) × (s.Idx → EReal))) concatenates_S1x1_S1x1_S1x1_S1x3_d1 (ix2 (0 : Fin 1) (0 : Fin 3)) 0 (by show (0 : ℕ) < 3; omega)
    S1x1 (lane0 d) rfl rfl 0 rfl (ix2 (0 : Fin 1) (0 : Fin 1))
    (fun b hb => by match b, hb with | ⟨0, _⟩, _ => rfl | ⟨1, _⟩, hb => exact (hb (Fin.ext rfl)).elim) rfl

theorem three_one (d : FVec Ideal S513x1600 .f32) : three d (ix2 (0 : Fin 1) (1 : Fin 3)) = lane1 d (ix2 (0 : Fin 1) (0 : Fin 1)) := by
  unfold three
  exact concatenate_apply_piece (t := S1x3) (1 : Fin 2)
    ([⟨S1x1, lane0 d⟩, ⟨S1x1, lane1 d⟩, ⟨S1x1, lane2 d⟩] : List ((s : Shape) × (s.Idx → EReal))) concatenates_S1x1_S1x1_S1x1_S1x3_d1 (ix2 (0 : Fin 1) (1 : Fin 3)) 1 (by show (1 : ℕ) < 3; omega)
    S1x1 (lane1 d) rfl rfl 1 rfl (ix2 (0 : Fin 1) (0 : Fin 1))
    (fun b hb => by match b, hb with | ⟨0, _⟩, _ => rfl | ⟨1, _⟩, hb => exact (hb (Fin.ext rfl)).elim) rfl

theorem three_two (d : FVec Ideal S513x1600 .f32) : three d (ix2 (0 : Fin 1) (2 : Fin 3)) = lane2 d (ix2 (0 : Fin 1) (0 : Fin 1)) := by
  unfold three
  exact concatenate_apply_piece (t := S1x3) (1 : Fin 2)
    ([⟨S1x1, lane0 d⟩, ⟨S1x1, lane1 d⟩, ⟨S1x1, lane2 d⟩] : List ((s : Shape) × (s.Idx → EReal))) concatenates_S1x1_S1x1_S1x1_S1x3_d1 (ix2 (0 : Fin 1) (2 : Fin 3)) 2 (by show (2 : ℕ) < 3; omega)
    S1x1 (lane2 d) rfl rfl 2 rfl (ix2 (0 : Fin 1) (0 : Fin 1))
    (fun b hb => by match b, hb with | ⟨0, _⟩, _ => rfl | ⟨1, _⟩, hb => exact (hb (Fin.ext rfl)).elim) rfl

/-- The row above, around the end: row 0's is row 512. -/
def prevRow (r : Fin 513) : Fin 513 := ⟨(r.val + 513 - 1) % 513, Nat.mod_lt _ (by decide)⟩
/-- The column before, around the end: column 0's is column 1599. -/
def prevCol (t : Fin 1600) : Fin 1600 := ⟨(t.val + 1600 - 1) % 1600, Nat.mod_lt _ (by decide)⟩

theorem downRows_apply (d : FVec Ideal S513x1600 .f32) (r : Fin 513) (t : Fin 1600) :
    downRows d (ix2 r t) = d (ix2 (prevRow r) t) - d (ix2 r t) := by
  unfold downRows
  show dynamicRotate 0 1#32 none d rotates_S513x1600_d0 (ix2 r t) - d (ix2 r t) = _
  congr 1
  exact dynamicRotate_apply (0 : Fin 2) 1#32 d rotates_S513x1600_d0 (ix2 r t) (ix2 (prevRow r) t) (by
    intro b
    match b with
    | ⟨0, _⟩ => show (r.val + 513 - 1) % 513 = (r.val + 513 - (1#32 : BitVec 32).toNat % 513) % 513; rfl
    | ⟨1, _⟩ => rfl)

theorem alongCols_apply (d : FVec Ideal S513x1600 .f32) (r : Fin 513) (t : Fin 1600) :
    alongCols d (ix2 r t) = d (ix2 r (prevCol t)) - d (ix2 r t) := by
  unfold alongCols
  show dynamicRotate 1 1#32 none d rotates_S513x1600_d1 (ix2 r t) - d (ix2 r t) = _
  congr 1
  exact dynamicRotate_apply (1 : Fin 2) 1#32 d rotates_S513x1600_d1 (ix2 r t) (ix2 r (prevCol t)) (by
    intro b
    match b with
    | ⟨0, _⟩ => rfl
    | ⟨1, _⟩ => show (t.val + 1600 - 1) % 1600 = (t.val + 1600 - (1#32 : BitVec 32).toNat % 1600) % 1600; rfl)

/-- The plane's difference at (r, t). -/
theorem planeDiff_apply (x0 x1 : Vec Ideal S1x513x1600 .f32) (r : Fin 513) (t : Fin 1600) :
    planeDiff x0 x1 (ix2 r t) = x0 (ix3 (0 : Fin 1) r t) - x1 (ix3 (0 : Fin 1) r t) := by
  have e : ∀ x : Vec Ideal S1x513x1600 .f32,
      shapeCast S513x1600 x shapeCasts_S1x513x1600_S513x1600 (ix2 r t) = x (ix3 (0 : Fin 1) r t) := fun x =>
    shapeCast_apply x shapeCasts_S1x513x1600_S513x1600 (ix2 r t) (ix3 (0 : Fin 1) r t) (by
      rw [Shape.rowMajor_val_two, Shape.rowMajor_val_three]
      show (0 * 513 + r.val) * 1600 + t.val = r.val * 1600 + t.val; omega)
  show shapeCast S513x1600 x0 shapeCasts_S1x513x1600_S513x1600 (ix2 r t) - shapeCast S513x1600 x1 shapeCasts_S1x513x1600_S513x1600 (ix2 r t) = _
  rw [e x0, e x1]

/-- Lane 0: the sum of u D over the plane. -/
theorem lane0_apply (d : FVec Ideal S513x1600 .f32) :
    lane0 d (ix2 (0 : Fin 1) (0 : Fin 1)) = ∑ r : Fin 513, ∑ t : Fin 1600, direct periodW (d (ix2 r t)) := by
  unfold lane0
  rw [total_apply]
  rfl

/-- Lane 1: the rows' sum with row 0's wrapped term taken out and u D's row 0 put in. -/
theorem lane1_apply (d : FVec Ideal S513x1600 .f32) :
    lane1 d (ix2 (0 : Fin 1) (0 : Fin 1))
      = (∑ r : Fin 513, ∑ t : Fin 1600, direct periodW (d (ix2 (prevRow r) t) - d (ix2 r t))
          - ∑ t : Fin 1600, direct periodW (d (ix2 (prevRow 0) t) - d (ix2 (0 : Fin 513) t)))
        + ∑ t : Fin 1600, direct periodW (d (ix2 (0 : Fin 513) t)) := by
  unfold lane1
  show (total (wrapped (downRows d)) (ix2 (0 : Fin 1) (0 : Fin 1)) - rowTotal (wrapped (downRows d)) (ix2 (0 : Fin 1) (0 : Fin 1)))
      + rowTotal (wrapped d) (ix2 (0 : Fin 1) (0 : Fin 1)) = _
  rw [total_apply, rowTotal_apply, rowTotal_apply]
  simp only [wrapped_apply, downRows_apply]

/-- Lane 2: the same along the columns. -/
theorem lane2_apply (d : FVec Ideal S513x1600 .f32) :
    lane2 d (ix2 (0 : Fin 1) (0 : Fin 1))
      = (∑ r : Fin 513, ∑ t : Fin 1600, direct periodW (d (ix2 r (prevCol t)) - d (ix2 r t))
          - ∑ r : Fin 513, direct periodW (d (ix2 r (prevCol 0)) - d (ix2 r (0 : Fin 1600))))
        + ∑ r : Fin 513, direct periodW (d (ix2 r (0 : Fin 1600))) := by
  unfold lane2
  show (total (wrapped (alongCols d)) (ix2 (0 : Fin 1) (0 : Fin 1)) - colTotal (wrapped (alongCols d)) (ix2 (0 : Fin 1) (0 : Fin 1)))
      + colTotal (wrapped d) (ix2 (0 : Fin 1) (0 : Fin 1)) = _
  rw [total_apply, colTotal_apply, colTotal_apply]
  simp only [wrapped_apply, alongCols_apply]

end Cert.KernelIdeal.Lanes

end
-- ==== Proof.KernelValue.lean ====
/-
  The kernel's three results as functions of its two argument arrays.

  At point t the two input windows hold plane t of the arguments, so the plane's difference there is plane t of
  x0 - x1; the row the point contributes carries, in lanes 0, 1, 2, the three numbers of that plane. Summed over
  the sixteen planes of each core, then over the two cores, and divided by the count, they are the three results.
-/
import proofs.«116724_j26448408608917_2_alg».proof.Proof.KernelTail
import proofs.«116724_j26448408608917_2_alg».proof.Proof.KernelLanes

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.KernelIdeal.Body Cert.KernelIdeal.Acc Cert.KernelIdeal.Arr
  Cert.KernelIdeal.Tail Cert.KernelIdeal.Lanes

abbrev Arr3 : Type := (⟨3, ![32, 513, 1600]⟩ : Shape).Idx → EReal

abbrev zeroW : EReal := Ideal.ofBits .f32 0x00000000#32
abbrev countW : EReal := Ideal.ofBits .f32 0x4BC86400#32

/-- Plane p of x0 - x1, as a [513, 1600] matrix. -/
def planeOf (X0 X1 : Arr3) (p : Fin 32) : FVec Ideal S513x1600 .f32 := fun j =>
  X0 (ix3 p (⟨(j 0).val, (j 0).isLt⟩ : Fin 513) (⟨(j 1).val, (j 1).isLt⟩ : Fin 1600))
    - X1 (ix3 p (⟨(j 0).val, (j 0).isLt⟩ : Fin 513) (⟨(j 1).val, (j 1).isLt⟩ : Fin 1600))

theorem planeOf_apply (X0 X1 : Arr3) (p : Fin 32) (r : Fin 513) (t : Fin 1600) :
    planeOf X0 X1 p (ix2 r t) = X0 (ix3 p r t) - X1 (ix3 p r t) := rfl

/-- The number in lane l of the row of plane p (zero past the last plane). -/
def laneAt (X0 X1 : Arr3) (l : Fin 3) (p : ℕ) : EReal :=
  if h : p < 32 then three (planeOf X0 X1 ⟨p, h⟩) (ix2 (0 : Fin 1) l) else 0

/-- Result l: the lane-l numbers of all planes, core by core, summed from zero and divided by the count. -/
def kernelMean (X0 X1 : Arr3) (l : Fin 3) : EReal :=
  Ideal.div (zeroW + ∑ q : Fin 2, ∑ b ∈ Finset.range 16, laneAt X0 X1 l (16 * q.val + b)) countW

variable (m : (ℓ : Loc nD τ sig) → Buf (Elt Ideal) ℓ)

/-- The first input window's block at point t is plane t of the first argument. -/
theorem block0_apply (c : Dev nD) (t : Fin cfg0.N) (r : Fin 513) (tt : Fin 1600) :
    (iblk m c 0 t : Vec Ideal S1x513x1600 .f32) (ix3 (0 : Fin 1) r tt)
      = m ((c : Thread nD τ).loc main_arg0) (ix3 (⟨t.val, lt_of_lt_of_eq t.isLt N_0⟩ : Fin 32) r tt) := by
  obtain ⟨e0, e1, e2, -, -, -, -, -, -⟩ := block_index t
  unfold iblk
  rw [View.read_apply]
  show V m c main_arg0 _ = m (c.tc.loc main_arg0) _
  unfold V
  congr 1
  funext a
  apply Fin.ext
  match a with
  | ⟨0, _⟩ => show win0_0.index t (0 : Fin 3) * 1 + 1 * 0 = t.val; omega
  | ⟨1, _⟩ => show win0_0.index t (1 : Fin 3) * 513 + 1 * r.val = r.val; omega
  | ⟨2, _⟩ => show win0_0.index t (2 : Fin 3) * 1600 + 1 * tt.val = tt.val; omega

/-- The second input window's block at point t is plane t of the second argument. -/
theorem block1_apply (c : Dev nD) (t : Fin cfg0.N) (r : Fin 513) (tt : Fin 1600) :
    (iblk m c 1 t : Vec Ideal S1x513x1600 .f32) (ix3 (0 : Fin 1) r tt)
      = m ((c : Thread nD τ).loc main_arg1) (ix3 (⟨t.val, lt_of_lt_of_eq t.isLt N_0⟩ : Fin 32) r tt) := by
  obtain ⟨-, -, -, e0, e1, e2, -, -, -⟩ := block_index t
  unfold iblk
  rw [View.read_apply]
  show V m c main_arg1 _ = m (c.tc.loc main_arg1) _
  unfold V
  congr 1
  funext a
  apply Fin.ext
  match a with
  | ⟨0, _⟩ => show win0_1.index t (0 : Fin 3) * 1 + 1 * 0 = t.val; omega
  | ⟨1, _⟩ => show win0_1.index t (1 : Fin 3) * 513 + 1 * r.val = r.val; omega
  | ⟨2, _⟩ => show win0_1.index t (2 : Fin 3) * 1600 + 1 * tt.val = tt.val; omega

/-- The plane's difference at point t is plane t of x0 - x1. -/
theorem planeDiff_block (c : Dev nD) (t : Fin cfg0.N) :
    planeDiff (iblk m c 0 t) (iblk m c 1 t)
      = planeOf (m ((c : Thread nD τ).loc main_arg0)) (m ((c : Thread nD τ).loc main_arg1)) ⟨t.val, lt_of_lt_of_eq t.isLt N_0⟩ := by
  funext j
  obtain ⟨r, tt, rfl⟩ : ∃ (r : Fin 513) (tt : Fin 1600), j = ix2 r tt := ⟨j 0, j 1, eq_ix2 j⟩
  rw [planeDiff_apply, planeOf_apply, block0_apply, block1_apply]

/-- The row of the plane met at point p, at lane l < 3, is that plane's lane-l number. -/
theorem rowAt_lane (c : Dev nD) (p : ℕ) (l : Fin 3) :
    rowAt m c p (ix3 (0 : Fin 1) (0 : Fin 1) (⟨l.val, by have := l.isLt; omega⟩ : Fin 128))
      = laneAt (m ((c : Thread nD τ).loc main_arg0)) (m ((c : Thread nD τ).loc main_arg1)) l p := by
  have hN : cfg0.N = 32 := N_0
  unfold laneAt
  by_cases h : p < 32
  · have h' : p < cfg0.N := by rw [hN]; exact h
    rw [dif_pos h, rowAt_of_lt m c p h', step_eq]
    show shapeCast S1x1x128 (k0_pay2 (F := Ideal)) shapeCasts_S1x1x128_S1x1x128 _ + planeRow _ _ = _
    rw [shapeCast_self, zero_row, zero_add, planeRow_apply, planeDiff_block]
  · have h' : ¬p < cfg0.N := by rw [hN]; exact h
    rw [dif_neg h]
    unfold rowAt
    rw [dif_neg h']

/-- The host lines' result at lane l, from the array of per-core sums, is `kernelMean`. -/
theorem mean_sums (c : Dev nD) (l : Fin 3) (hs : S3.Slices ![l.val] S1) (i : S_.Idx) :
    mean ![l.val] hs (sums m c) i
      = kernelMean (m ((c : Thread nD τ).loc main_arg0)) (m ((c : Thread nD τ).loc main_arg1)) l := by
  rw [mean_apply]
  unfold kernelMean
  congr 2
  refine Finset.sum_congr rfl fun q _ => ?_
  unfold sums
  show ∑ b ∈ Finset.range 16, rowAt m c (16 * q.val + b) (ix3 (0 : Fin 1) (0 : Fin 1) (⟨l.val, _⟩ : Fin 128)) = _
  exact Finset.sum_congr rfl fun b _ => rowAt_lane m c (16 * q.val + b) l

end Cert.KernelIdeal.Value

end
-- ==== Proof.RefRead.lean ====
/-
  The reference's three results, read at their one index.

  With D = x0 - x1 entry by entry, each result is (0 + the sum over every entry j of u(E j)) / count, where u is
  the spelling of |z - round(z / c) * c| that writes the rounded quotient as y + (round y - y), and E is D itself
  for the first result, (D moved one place along axis 1, zero in place 0) - D for the second, and the same along
  axis 2 for the third. The zero is the padding value: the integer 0 converted to a float.
-/
import proofs.«116724_j26448408608917_2_alg».proof.Proof.Gen.ReferenceIdeal.Read
import proofs.«116724_j26448408608917_2_alg».proof.Proof.WrapLaw
import Idealize.ShloMosaic.Lib.ValueIdx
import Idealize.ShloMosaic.Lib.KernelVsHost
import Idealize.ShloMosaic.Lib.Pipeline.Value
import Idealize.ShloMosaic.PureOps.Ideal.Laws

noncomputable section

namespace Cert.RefRead

open Idealize.ShloMosaic Idealize.ShloMosaic.ValueIdx Cert.ReferenceIdeal Cert.ReferenceIdeal.Gen Cert.ReferenceIdeal.Read Cert.WrapLaw

/-- The words of the period, of the count of entries, and of zero. -/
abbrev periodW : EReal := Ideal.ofBits .f32 0x40C90FDB#32
abbrev countW : EReal := Ideal.ofBits .f32 0x4BC86400#32
abbrev zeroW : EReal := Ideal.ofBits .f32 0x00000000#32

abbrev Arr : Type := (⟨3, ![32, 513, 1600]⟩ : Shape).Idx → EReal

/-- The entry (p, f, t), from plain coordinates. -/
abbrev at3 (p : Fin 32) (f : Fin 513) (t : Fin 1600) : (⟨3, ![32, 513, 1600]⟩ : Shape).Idx := ix3 p f t

/-- The difference of the two inputs, entry by entry. -/
def diff (x0 x1 : Arr) : Arr := fun j => x0 j - x1 j

/-- D moved one place along axis 1: entry (p, f, t) is D (p, f - 1, t), and zero at f = 0. -/
def shiftRow (D : Arr) : Arr := fun j =>
  if (j 1).val = 0 then 0
  else D (at3 ⟨(j 0).val, (j 0).isLt⟩ ⟨(j 1).val - 1, by have h1 : (j 1).val < 513 := (j 1).isLt; omega⟩ ⟨(j 2).val, (j 2).isLt⟩)

/-- D moved one place along axis 2: entry (p, f, t) is D (p, f, t - 1), and zero at t = 0. -/
def shiftCol (D : Arr) : Arr := fun j =>
  if (j 2).val = 0 then 0
  else D (at3 ⟨(j 0).val, (j 0).isLt⟩ ⟨(j 1).val, (j 1).isLt⟩ ⟨(j 2).val - 1, by have h2 : (j 2).val < 1600 := (j 2).isLt; omega⟩)

/-- The padding value, the integer 0 as a float, is 0. -/
theorem pad_value1 (i : S_.Idx) : val_main_call1_v0 (F := Ideal) i = 0 := by
  show (((0#32 : BitVec 32).toInt : ℝ) : EReal) = 0
  simp

theorem pad_value3 (i : S_.Idx) : val_main_call3_v0 (F := Ideal) i = 0 := by
  show (((0#32 : BitVec 32).toInt : ℝ) : EReal) = 0
  simp

/-- One row of padding in front along axis 1, then the first 513 rows kept: the array moved one place. -/
theorem padded_rows (x0 x1 : Arr) (j : S32x513x1600.Idx) :
    val_main_v12 (F := Ideal) x0 x1 (idx_main_v13 j) = shiftRow (diff x0 x1) j := by
  unfold val_main_v12 shiftRow
  by_cases h : (j 1).val = 0
  · rw [if_pos h]
    refine (pad_apply_of_not_inside _ _ _ _ _ pads_S32x513x1600_S32x514x1600_000_100_000 h_S_ (idx_main_v13 j) (1 : Fin 3) ?_).trans (pad_value1 _)
    rintro ⟨h1, -, -⟩
    change 1 ≤ (j 1).val at h1
    omega
  · rw [if_neg h]
    refine pad_apply_of_inside _ _ _ _ _ pads_S32x513x1600_S32x514x1600_000_100_000 h_S_ (idx_main_v13 j) _ ?_
    intro a
    match a with
    | ⟨0, _⟩ => show (j 0).val = 0 + (j 0).val * (0 + 1); omega
    | ⟨1, _⟩ => show (j 1).val = 1 + ((j 1).val - 1) * (0 + 1); omega
    | ⟨2, _⟩ => show (j 2).val = 0 + (j 2).val * (0 + 1); omega

/-- One column of padding in front along axis 2, then the first 1600 columns kept: the array moved one place. -/
theorem padded_cols (x0 x1 : Arr) (j : S32x513x1600.Idx) :
    val_main_v26 (F := Ideal) x0 x1 (idx_main_v27 j) = shiftCol (diff x0 x1) j := by
  unfold val_main_v26 shiftCol
  by_cases h : (j 2).val = 0
  · rw [if_pos h]
    refine (pad_apply_of_not_inside _ _ _ _ _ pads_S32x513x1600_S32x513x1601_000_000_100 h_S_ (idx_main_v27 j) (2 : Fin 3) ?_).trans (pad_value3 _)
    rintro ⟨h1, -, -⟩
    change 1 ≤ (j 2).val at h1
    omega
  · rw [if_neg h]
    refine pad_apply_of_inside _ _ _ _ _ pads_S32x513x1600_S32x513x1601_000_000_100 h_S_ (idx_main_v27 j) _ ?_
    intro a
    match a with
    | ⟨0, _⟩ => show (j 0).val = 0 + (j 0).val * (0 + 1); omega
    | ⟨1, _⟩ => show (j 1).val = 0 + (j 1).val * (0 + 1); omega
    | ⟨2, _⟩ => show (j 2).val = 1 + ((j 2).val - 1) * (0 + 1); omega

/-- An entry of the first result's summand. -/
theorem entry0 (x0 x1 : Arr) (j : S32x513x1600.Idx) :
    val_main_v9 (F := Ideal) x0 x1 j = detour periodW (diff x0 x1 j) := by
  simp only [val_main_v9_apply, val_main_v8_apply, val_main_v7_apply, val_main_v6_apply, val_main_v5_apply, val_main_v4_apply,
    val_main_v3_apply, val_main_v2_apply, val_main_v1_apply, val_main_v0_apply, val_main_cst_apply, val_main_cst_0_apply,
    Ideal.hostDivf_def, Ideal.hostAbsf_def, Ideal.subf_def, Ideal.addf_def, Ideal.mulf_def, Ideal.hostUnary_roundeven_def,
    Ideal.ofBits_def]
  rfl

/-- An entry of the second result's summand. -/
theorem entry1 (x0 x1 : Arr) (j : S32x513x1600.Idx) :
    val_main_v23 (F := Ideal) x0 x1 j = detour periodW (shiftRow (diff x0 x1) j - diff x0 x1 j) := by
  simp only [val_main_v23_apply, val_main_v22_apply, val_main_v21_apply, val_main_v20_apply, val_main_v19_apply, val_main_v18_apply,
    val_main_v17_apply, val_main_v16_apply, val_main_v15_apply, val_main_v14_apply, val_main_v13_apply, val_main_v0_apply,
    val_main_cst_3_apply, val_main_cst_4_apply, padded_rows,
    Ideal.hostDivf_def, Ideal.hostAbsf_def, Ideal.subf_def, Ideal.addf_def, Ideal.mulf_def, Ideal.hostUnary_roundeven_def,
    Ideal.ofBits_def]
  rfl

/-- An entry of the third result's summand. -/
theorem entry2 (x0 x1 : Arr) (j : S32x513x1600.Idx) :
    val_main_v37 (F := Ideal) x0 x1 j = detour periodW (shiftCol (diff x0 x1) j - diff x0 x1 j) := by
  simp only [val_main_v37_apply, val_main_v36_apply, val_main_v35_apply, val_main_v34_apply, val_main_v33_apply, val_main_v32_apply,
    val_main_v31_apply, val_main_v30_apply, val_main_v29_apply, val_main_v28_apply, val_main_v27_apply, val_main_v0_apply,
    val_main_cst_8_apply, val_main_cst_9_apply, padded_cols,
    Ideal.hostDivf_def, Ideal.hostAbsf_def, Ideal.subf_def, Ideal.addf_def, Ideal.mulf_def, Ideal.hostUnary_roundeven_def,
    Ideal.ofBits_def]
  rfl

theorem mean0 (x0 x1 : Arr) (i : S_.Idx) :
    val_main_v11 (F := Ideal) x0 x1 i = Ideal.div (zeroW + ∑ j : S32x513x1600.Idx, detour periodW (diff x0 x1 j)) countW := by
  rw [val_main_v11_apply, val_main_v10_apply]
  simp only [entry0]
  rfl

theorem mean1 (x0 x1 : Arr) (i : S_.Idx) :
    val_main_v25 (F := Ideal) x0 x1 i
      = Ideal.div (zeroW + ∑ j : S32x513x1600.Idx, detour periodW (shiftRow (diff x0 x1) j - diff x0 x1 j)) countW := by
  rw [val_main_v25_apply, val_main_v24_apply]
  simp only [entry1]
  rfl

theorem mean2 (x0 x1 : Arr) (i : S_.Idx) :
    val_main_v39 (F := Ideal) x0 x1 i
      = Ideal.div (zeroW + ∑ j : S32x513x1600.Idx, detour periodW (shiftCol (diff x0 x1) j - diff x0 x1 j)) countW := by
  rw [val_main_v39_apply, val_main_v38_apply]
  simp only [entry2]
  rfl

end Cert.RefRead

end
-- ==== Proof.SumLaw.lean ====
/-
  The laws of finite sums that join the two programs.

  * The planes 16 q + b for q < 2, b < 16 are the planes 0 … 31, once each.
  * A sum over the entries of a [n0, n1, n2] array is the triple sum over its coordinates.
  * Along one line g 0, …, g n, with w even (w (0 - x) = w x): the sum over i of w (g (i - 1 around the end) - g i),
    with the term at i = 0 taken out and w (g 0) put in, is the sum over i of w (s i - g i) where s is g moved one
    place with zero in place 0. Both sides are w (g 0) plus the same terms for i ≥ 1.
  * The same law for every line of a plane, along the rows and along the columns.
-/
import Idealize.ShloMosaic.Lib.ValueIdx
import Mathlib.Tactic

noncomputable section

namespace Cert.SumLaw

open Idealize.ShloMosaic Idealize.ShloMosaic.ValueIdx

/-- Sixteen planes per core, two cores: the planes 0 … 31, once each. -/
theorem regroup {M : Type*} [AddCommMonoid M] (f : ℕ → M) :
    ∑ q : Fin 2, ∑ b ∈ Finset.range 16, f (16 * q.val + b) = ∑ p : Fin 32, f p.val := by
  rw [Fin.sum_univ_two, Fin.sum_univ_eq_sum_range (fun p => f p) 32, show (32 : ℕ) = 16 + 16 from rfl,
    Finset.sum_range_add]
  simp

/-- The entries of a rank-3 array, by their coordinates. -/
def idxEquiv3 {n0 n1 n2 : ℕ} : (⟨3, ![n0, n1, n2]⟩ : Shape).Idx ≃ Fin n0 × Fin n1 × Fin n2 where
  toFun j := (j 0, j 1, j 2)
  invFun p := ix3 p.1 p.2.1 p.2.2
  left_inv j := (eq_ix3 j).symm
  right_inv p := rfl

theorem sum_idx3 {M : Type*} [AddCommMonoid M] {n0 n1 n2 : ℕ} (f : (⟨3, ![n0, n1, n2]⟩ : Shape).Idx → M) :
    ∑ j, f j = ∑ p : Fin n0, ∑ r : Fin n1, ∑ t : Fin n2, f (ix3 p r t) := by
  rw [← Equiv.sum_comp (idxEquiv3 (n0 := n0) (n1 := n1) (n2 := n2)).symm f, Fintype.sum_prod_type]
  refine Finset.sum_congr rfl fun p _ => ?_
  rw [Fintype.sum_prod_type]
  rfl

/-- g moved one place along the line, zero in place 0. -/
def moved {n : ℕ} (g : Fin (n + 1) → ℝ) (i : Fin (n + 1)) : ℝ :=
  if i.val = 0 then 0 else g ⟨i.val - 1, by have := i.isLt; omega⟩

/-- The law along one line. -/
theorem line_law {n : ℕ} (w : ℝ → ℝ) (hw : ∀ x, w (0 - x) = w x) (g : Fin (n + 1) → ℝ) (prev : Fin (n + 1) → Fin (n + 1))
    (hprev : ∀ i : Fin n, prev i.succ = i.castSucc) :
    (∑ i, w (g (prev i) - g i) - w (g (prev 0) - g 0)) + w (g 0) = ∑ i, w (moved g i - g i) := by
  rw [Fin.sum_univ_succ, Fin.sum_univ_succ]
  have h0 : moved g 0 = 0 := if_pos rfl
  have hs : ∀ i : Fin n, moved g i.succ = g i.castSucc := fun i => by
    unfold moved
    rw [if_neg (by simp)]
    congr 1
  simp only [h0, hs, hprev, hw]
  ring

/-- The law for every column of a plane: lines run down the rows. -/
theorem rows_law {n T : ℕ} (w : ℝ → ℝ) (hw : ∀ x, w (0 - x) = w x) (e : Fin (n + 1) → Fin T → ℝ)
    (prev : Fin (n + 1) → Fin (n + 1)) (hprev : ∀ i : Fin n, prev i.succ = i.castSucc) :
    (∑ r, ∑ t, w (e (prev r) t - e r t) - ∑ t, w (e (prev 0) t - e 0 t)) + ∑ t, w (e 0 t)
      = ∑ r, ∑ t, w (moved (fun r' => e r' t) r - e r t) := by
  rw [Finset.sum_comm, Finset.sum_comm (f := fun r t => w (moved (fun r' => e r' t) r - e r t)),
    ← Finset.sum_sub_distrib, ← Finset.sum_add_distrib]
  exact Finset.sum_congr rfl fun t _ => line_law w hw (fun r' => e r' t) prev hprev

/-- The law for every row of a plane: lines run along the columns. -/
theorem cols_law {R n : ℕ} (w : ℝ → ℝ) (hw : ∀ x, w (0 - x) = w x) (e : Fin R → Fin (n + 1) → ℝ)
    (prev : Fin (n + 1) → Fin (n + 1)) (hprev : ∀ i : Fin n, prev i.succ = i.castSucc) :
    (∑ r, ∑ t, w (e r (prev t) - e r t) - ∑ r, w (e r (prev 0) - e r 0)) + ∑ r, w (e r 0)
      = ∑ r, ∑ t, w (moved (e r) t - e r t) := by
  rw [← Finset.sum_sub_distrib, ← Finset.sum_add_distrib]
  exact Finset.sum_congr rfl fun r _ => line_law w hw (e r) prev hprev

end Cert.SumLaw

end
-- ==== Proof.Bridge.lean ====
/-
  The two programs compute the same three numbers on finite inputs.

  Write the inputs as real arrays a, b and D p r t = a (p, r, t) - b (p, r, t). With w x = |x - round(x / c) * c| for the
  period c (a nonzero real), both spellings of the entry function are w on reals. Then
    result 0 is (0 + the sum over p, r, t of w (D p r t)) / count on both sides;
    result 1: the kernel's plane number is (the sum over r, t of w (D p (r - 1 around the end) t - D p r t)) minus its
      row 0 plus the sum over t of w (D p 0 t); the reference's is the sum over r, t of w (S p r t - D p r t) with S the
      plane moved one row down, zero in row 0. They agree because w (0 - x) = w x: both are the sum over t of
      w (D p 0 t) plus the same terms for r ≥ 1. Subtracting row 0 is sound because every term is a real number;
    result 2: the same along the columns.
  The kernel adds the planes core by core (16 q + b), the reference all at once: the same planes, once each.
-/
import proofs.«116724_j26448408608917_2_alg».proof.Proof.KernelValue
import proofs.«116724_j26448408608917_2_alg».proof.Proof.RefRead
import proofs.«116724_j26448408608917_2_alg».proof.Proof.SumLaw

noncomputable section

namespace Cert.Bridge

open Idealize.ShloMosaic Idealize.ShloMosaic.ValueIdx Cert.WrapLaw Cert.SumLaw Cert.KernelIdeal.Lanes

abbrev Arr : Type := (⟨3, ![32, 513, 1600]⟩ : Shape).Idx → EReal

variable (a b : (⟨3, ![32, 513, 1600]⟩ : Shape).Idx → ℝ) (c : ℝ)

/-- The two inputs on the extended reals. -/
abbrev up (a : (⟨3, ![32, 513, 1600]⟩ : Shape).Idx → ℝ) : Arr := fun j => (a j : EReal)

/-- The entries of the difference. -/
def D (p : Fin 32) (r : Fin 513) (t : Fin 1600) : ℝ := a (ix3 p r t) - b (ix3 p r t)

theorem plane_coe (p : Fin 32) (r : Fin 513) (t : Fin 1600) :
    Cert.KernelIdeal.Value.planeOf (up a) (up b) p (ix2 r t) = ((D a b p r t : ℝ) : EReal) := by
  rw [Cert.KernelIdeal.Value.planeOf_apply, ← EReal.coe_sub]; rfl

theorem diff_coe (p : Fin 32) (r : Fin 513) (t : Fin 1600) :
    Cert.RefRead.diff (up a) (up b) (ix3 p r t) = ((D a b p r t : ℝ) : EReal) := by
  unfold Cert.RefRead.diff; rw [← EReal.coe_sub]; rfl

variable {c} (hc : c ≠ 0) (hcw : Ideal.ofBits .f32 0x40C90FDB#32 = (c : EReal))

include hc hcw in
theorem direct_at (x : ℝ) : direct (Ideal.ofBits .f32 0x40C90FDB#32) (x : EReal) = ((w c x : ℝ) : EReal) := by
  rw [hcw]; exact direct_coe hc x

include hc hcw in
theorem detour_at (x : ℝ) : detour (Ideal.ofBits .f32 0x40C90FDB#32) (x : EReal) = ((w c x : ℝ) : EReal) := by
  rw [hcw]; exact detour_coe hc x

/-- The row above row i + 1 is row i; the column before column i + 1 is column i. -/
theorem prevRow_succ (i : Fin 512) : prevRow i.succ = i.castSucc := by
  apply Fin.ext
  show (i.val + 1 + 513 - 1) % 513 = i.val
  have := i.isLt; omega

theorem prevCol_succ (i : Fin 1599) : prevCol i.succ = i.castSucc := by
  apply Fin.ext
  show (i.val + 1 + 1600 - 1) % 1600 = i.val
  have := i.isLt; omega

/-- The reference's plane moved one row down, on real entries. -/
theorem shiftRow_coe (p : Fin 32) (r : Fin 513) (t : Fin 1600) :
    Cert.RefRead.shiftRow (Cert.RefRead.diff (up a) (up b)) (ix3 p r t)
      = ((moved (n := 512) (fun r' => D a b p r' t) r : ℝ) : EReal) := by
  unfold Cert.RefRead.shiftRow moved
  show (if r.val = 0 then (0 : EReal) else _) = _
  by_cases h : r.val = 0
  · rw [if_pos h, if_pos h]; rfl
  · rw [if_neg h, if_neg h]
    exact diff_coe a b p ⟨r.val - 1, _⟩ t

/-- The reference's plane moved one column along, on real entries. -/
theorem shiftCol_coe (p : Fin 32) (r : Fin 513) (t : Fin 1600) :
    Cert.RefRead.shiftCol (Cert.RefRead.diff (up a) (up b)) (ix3 p r t)
      = ((moved (n := 1599) (D a b p r) t : ℝ) : EReal) := by
  unfold Cert.RefRead.shiftCol moved
  show (if t.val = 0 then (0 : EReal) else _) = _
  by_cases h : t.val = 0
  · rw [if_pos h, if_pos h]; rfl
  · rw [if_neg h, if_neg h]
    exact diff_coe a b p r ⟨t.val - 1, _⟩

/-! ### The kernel's plane numbers, as real numbers -/

include hc hcw in
theorem lane0_real (p : Fin 32) :
    lane0 (Cert.KernelIdeal.Value.planeOf (up a) (up b) p) (ix2 (0 : Fin 1) (0 : Fin 1))
      = ((∑ r : Fin 513, ∑ t : Fin 1600, w c (D a b p r t) : ℝ) : EReal) := by
  rw [lane0_apply]
  simp only [plane_coe, direct_at hc hcw, coe_sum]

include hc hcw in
theorem lane1_real (p : Fin 32) :
    lane1 (Cert.KernelIdeal.Value.planeOf (up a) (up b) p) (ix2 (0 : Fin 1) (0 : Fin 1))
      = ((∑ r : Fin 513, ∑ t : Fin 1600, w c (moved (n := 512) (fun r' => D a b p r' t) r - D a b p r t) : ℝ) : EReal) := by
  rw [lane1_apply]
  simp only [plane_coe, ← EReal.coe_sub, direct_at hc hcw, coe_sum, ← EReal.coe_add]
  exact congrArg _ (rows_law (n := 512) (T := 1600) (w c) (w_zero_sub c) (D a b p) prevRow prevRow_succ)

include hc hcw in
theorem lane2_real (p : Fin 32) :
    lane2 (Cert.KernelIdeal.Value.planeOf (up a) (up b) p) (ix2 (0 : Fin 1) (0 : Fin 1))
      = ((∑ r : Fin 513, ∑ t : Fin 1600, w c (moved (n := 1599) (D a b p r) t - D a b p r t) : ℝ) : EReal) := by
  rw [lane2_apply]
  simp only [plane_coe, ← EReal.coe_sub, direct_at hc hcw, coe_sum, ← EReal.coe_add]
  exact congrArg _ (cols_law (R := 513) (n := 1599) (w c) (w_zero_sub c) (D a b p) prevCol prevCol_succ)

/-- The kernel's sum over the planes, core by core, is the sum over the planes 0 … 31 of the plane's lane-l number. -/
theorem kernel_planes (X0 X1 : Arr) (l : Fin 3) :
    ∑ q : Fin 2, ∑ bb ∈ Finset.range 16, Cert.KernelIdeal.Value.laneAt X0 X1 l (16 * q.val + bb)
      = ∑ p : Fin 32, three (Cert.KernelIdeal.Value.planeOf X0 X1 p) (ix2 (0 : Fin 1) l) := by
  rw [regroup (fun p => Cert.KernelIdeal.Value.laneAt X0 X1 l p)]
  refine Finset.sum_congr rfl fun p _ => ?_
  unfold Cert.KernelIdeal.Value.laneAt
  rw [dif_pos p.isLt]

/-! ### The three results agree -/

include hc hcw in
theorem result0 :
    Cert.KernelIdeal.Value.kernelMean (up a) (up b) 0
      = Ideal.div (Ideal.ofBits .f32 0x00000000#32
          + ∑ j : (⟨3, ![32, 513, 1600]⟩ : Shape).Idx, detour (Ideal.ofBits .f32 0x40C90FDB#32) (Cert.RefRead.diff (up a) (up b) j))
        (Ideal.ofBits .f32 0x4BC86400#32) := by
  unfold Cert.KernelIdeal.Value.kernelMean
  rw [kernel_planes, sum_idx3]
  congr 2
  refine Finset.sum_congr rfl fun p _ => ?_
  rw [three_zero, lane0_real a b hc hcw p]
  simp only [diff_coe, detour_at hc hcw, coe_sum]

include hc hcw in
theorem result1 :
    Cert.KernelIdeal.Value.kernelMean (up a) (up b) 1
      = Ideal.div (Ideal.ofBits .f32 0x00000000#32
          + ∑ j : (⟨3, ![32, 513, 1600]⟩ : Shape).Idx, detour (Ideal.ofBits .f32 0x40C90FDB#32)
              (Cert.RefRead.shiftRow (Cert.RefRead.diff (up a) (up b)) j - Cert.RefRead.diff (up a) (up b) j))
        (Ideal.ofBits .f32 0x4BC86400#32) := by
  unfold Cert.KernelIdeal.Value.kernelMean
  rw [kernel_planes, sum_idx3]
  congr 2
  refine Finset.sum_congr rfl fun p _ => ?_
  rw [three_one, lane1_real a b hc hcw p]
  simp only [shiftRow_coe, diff_coe, ← EReal.coe_sub, detour_at hc hcw, coe_sum]

include hc hcw in
theorem result2 :
    Cert.KernelIdeal.Value.kernelMean (up a) (up b) 2
      = Ideal.div (Ideal.ofBits .f32 0x00000000#32
          + ∑ j : (⟨3, ![32, 513, 1600]⟩ : Shape).Idx, detour (Ideal.ofBits .f32 0x40C90FDB#32)
              (Cert.RefRead.shiftCol (Cert.RefRead.diff (up a) (up b)) j - Cert.RefRead.diff (up a) (up b) j))
        (Ideal.ofBits .f32 0x4BC86400#32) := by
  unfold Cert.KernelIdeal.Value.kernelMean
  rw [kernel_planes, sum_idx3]
  congr 2
  refine Finset.sum_congr rfl fun p _ => ?_
  rw [three_two, lane2_real a b hc hcw p]
  simp only [shiftCol_coe, diff_coe, ← EReal.coe_sub, detour_at hc hcw, coe_sum]

end Cert.Bridge

end
-- ==== Proof.LibFiniteMax.lean ====
/-
  Finite entries, clips and maxima on the extended reals. Library imports only.

  * The words of `+inf` and `-inf` denote `⊤` and `⊥`.
  * An extended real that the comparison `|x| < +inf` accepts — `max x (-x)` compared with the word of `+inf`, the
    element test of a "every input is finite" precondition — is a real number.
  * A value clipped into a real interval, `min hi (max lo r)`, is a real number whatever `r` is.
  * The maximum, taken from `⊥`, of a nonempty finite family of real numbers is a real number (a row's or an
    array's largest absolute value, as a quantizer's scale takes it).
  * The absolute value `max x (-x)` of a real number is a real number.
  "Is a real number" is stated as `∃ a : ℝ, x = ↑a`.
-/
import Idealize.ShloMosaic.PureOps.Ideal
import Mathlib.Data.EReal.Basic
import Mathlib.Data.EReal.Operations
import Mathlib.Data.Finset.Fold
import Mathlib.Tactic

noncomputable section

namespace Cert.LibFiniteMax

open Idealize.ShloMosaic

/-- The word of `+inf` denotes `⊤`. -/
theorem ofBits_pos_inf : Ideal.ofBits .f32 0x7F800000#32 = ⊤ := by
  simp [Ideal.ofBits, Ideal.ieee]

/-- The word of `-inf` denotes `⊥`. -/
theorem ofBits_neg_inf : Ideal.ofBits .f32 0xFF800000#32 = ⊥ := by
  simp [Ideal.ofBits, Ideal.ieee]

/-- A value that is neither infinity is a real number. -/
theorem real_of_ne {x : EReal} (h1 : x ≠ ⊤) (h2 : x ≠ ⊥) : ∃ a : ℝ, x = (a : EReal) :=
  ⟨x.toReal, (EReal.coe_toReal h1 h2).symm⟩

/-- A value whose absolute value `max x (-x)` is below `⊤` is a real number. -/
theorem real_of_abs_lt_top {x : EReal} (h : max x (-x) < ⊤) : ∃ a : ℝ, x = (a : EReal) := by
  have h1 : x < ⊤ := lt_of_le_of_lt (le_max_left _ _) h
  have h2 : -x < ⊤ := lt_of_le_of_lt (le_max_right _ _) h
  refine real_of_ne (ne_of_lt h1) ?_
  rintro rfl
  simp at h2

/-- An entry that the comparison `|x| < +inf` accepts is a real number. -/
theorem real_of_lt_inf {x : EReal}
    (h : Ideal.cmp .olt (max x (-x)) (Ideal.ofBits .f32 0x7F800000#32) = 1#1) : ∃ a : ℝ, x = (a : EReal) := by
  rw [ofBits_pos_inf] at h
  apply real_of_abs_lt_top
  by_contra hc
  have : Ideal.cmp .olt (max x (-x)) ⊤ = 0#1 := by
    unfold Ideal.cmp
    simp only [decide_eq_false hc]
    rfl
  rw [this] at h
  exact absurd h (by decide)

/-- A value clipped into the real interval [lo, hi] is a real number. -/
theorem clip_real (lo hi : ℝ) (hle : lo ≤ hi) (r : EReal) :
    ∃ a : ℝ, min (hi : EReal) (max (lo : EReal) r) = (a : EReal) := by
  apply real_of_ne
  · exact ne_of_lt (lt_of_le_of_lt (min_le_left _ _) (EReal.coe_lt_top _))
  · exact ne_of_gt (lt_of_lt_of_le (EReal.bot_lt_coe _)
      (le_min (EReal.coe_le_coe_iff.2 hle) (le_max_left _ _)))

/-- The maximum, from `⊥`, of a nonempty finite family of real numbers is a real number. -/
theorem fold_max_real {ι : Type*} (S : Finset ι) (f : ι → EReal) (hne : S.Nonempty)
    (hf : ∀ i ∈ S, ∃ a : ℝ, f i = (a : EReal)) : ∃ a : ℝ, S.fold max ⊥ f = (a : EReal) := by
  apply real_of_ne
  · apply ne_of_lt
    rw [Finset.fold_max_lt]
    refine ⟨bot_lt_top, fun i hi => ?_⟩
    obtain ⟨a, ha⟩ := hf i hi
    rw [ha]; exact EReal.coe_lt_top a
  · apply ne_of_gt
    rw [Finset.lt_fold_max]
    obtain ⟨i, hi⟩ := hne
    obtain ⟨a, ha⟩ := hf i hi
    exact Or.inr ⟨i, hi, by rw [ha]; exact EReal.bot_lt_coe a⟩

/-- The absolute value of a real number is a real number. -/
theorem abs_real {x : EReal} (hx : ∃ a : ℝ, x = (a : EReal)) : ∃ a : ℝ, max x (-x) = (a : EReal) := by
  obtain ⟨a, rfl⟩ := hx
  rcases le_total (a : EReal) (-(a : EReal)) with h | h
  · rw [max_eq_right h]; exact ⟨-a, (EReal.coe_neg a).symm⟩
  · rw [max_eq_left h]; exact ⟨a, rfl⟩

end Cert.LibFiniteMax

end
-- ==== Proof.Finite.lean ====
/-
  Finite inputs are real numbers.

  The precondition tests |x| < +inf at every entry of both inputs and takes the conjunction. Where it holds, every
  entry of both arrays is a real number (neither infinity), which is what the laws of subtraction used later need.
-/
import proofs.«116724_j26448408608917_2_alg».proof.Pre_finite_inputs
import proofs.«116724_j26448408608917_2_alg».proof.Proof.Gen.Pre_finite_inputs
import proofs.«116724_j26448408608917_2_alg».proof.Proof.LibFiniteMax
import Idealize.ShloMosaic.Lib.ReduceAll
import Idealize.ShloMosaic.Lib.ValueIdx
import Idealize.ShloMosaic.Lib.Pipeline.Value
import Idealize.ShloMosaic.PureOps.Ideal

noncomputable section

namespace Cert.Finite

open Idealize.ShloMosaic Idealize.ShloMosaic.ValueIdx Cert.Pre_finite_inputs Cert.Pre_finite_inputs.Facts

instance : Subsingleton S_.Idx := ⟨fun a b => funext fun d => d.elim0⟩

/-- An entry that passes the test |x| < +inf, the bound broadcast from its word, is a real number. -/
theorem real_of_test (x : FVec Ideal S32x513x1600 .f32) (j : S32x513x1600.Idx)
    (e : cmpf .olt (Host.absf (F := Ideal) x)
        (broadcastInDim S32x513x1600 ![] bcast_S_S32x513x1600 (constant (F := Ideal) S_ .f32 0x7F800000#32)) j = 1#1) :
    ∃ a : ℝ, x j = (a : EReal) := by
  have hb : broadcastInDim S32x513x1600 ![] bcast_S_S32x513x1600 (constant (F := Ideal) S_ .f32 0x7F800000#32) j
      = Ideal.ofBits .f32 0x7F800000#32 :=
    broadcastInDim_apply _ bcast_S_S32x513x1600 (constant (F := Ideal) S_ .f32 0x7F800000#32) j ix0 (fun a => a.elim0)
  have e' : Ideal.cmp .olt (max (x j) (-(x j)))
      (broadcastInDim S32x513x1600 ![] bcast_S_S32x513x1600 (constant (F := Ideal) S_ .f32 0x7F800000#32) j) = 1#1 := e
  rw [hb] at e'
  exact Cert.LibFiniteMax.real_of_lt_inf e'

/-- Where the precondition holds, both inputs are arrays of real numbers. -/
theorem real_of_pre (x0 x1 : FVec Ideal S32x513x1600 .f32)
    (h : Cert.Pre_finite_inputs.fn (F := Ideal) x0 x1 = fun _ => 1#1) :
    (∀ j, ∃ a : ℝ, x0 j = (a : EReal)) ∧ (∀ j, ∃ a : ℝ, x1 j = (a : EReal)) := by
  have h0 := congrFun h ix0
  dsimp only [Cert.Pre_finite_inputs.fn] at h0
  obtain ⟨h3, h7⟩ := IntOp.andi_eq_one.mp h0
  exact ⟨fun j => real_of_test x0 j (Host.reduce_andi_all _ _ _ _ ix0 h3 j),
    fun j => real_of_test x1 j (Host.reduce_andi_all _ _ _ _ ix0 h7 j)⟩

end Cert.Finite

end
-- ==== Proof.lean ====
/-
  The claim: the kernel computes, on finite inputs, the three means its reference computes.

  Both programs subtract the two [32, 513, 1600] inputs and average, over all entries, the distance of an entry
  (result 0), of its difference with the entry one row above (result 1), and of its difference with the entry one
  column before (result 2), to the nearest multiple of a period; above row 0 and before column 0 stands a zero.
  The kernel works plane by plane, rotating each plane instead of moving it and repairing row 0 (column 0) by the
  evenness of the distance; it adds the planes' numbers in two halves and the host adds the halves and divides.
  The frames and the kernel's run are the generated ones; the kernel's run is restated here with each result at a
  closed expression of the arguments, and joined to the reference's generated run entry by entry.
-/
import proofs.«116724_j26448408608917_2_alg».proof.Defs
import proofs.«116724_j26448408608917_2_alg».proof.Proof.Gen.Kernel
import proofs.«116724_j26448408608917_2_alg».proof.Proof.Gen.Kernel.Frame
import proofs.«116724_j26448408608917_2_alg».proof.Proof.Gen.KernelIdeal
import proofs.«116724_j26448408608917_2_alg».proof.Proof.Gen.KernelIdeal.Frame
import proofs.«116724_j26448408608917_2_alg».proof.Proof.Gen.ReferenceIdeal
import proofs.«116724_j26448408608917_2_alg».proof.Proof.Gen.ReferenceIdeal.Run
import proofs.«116724_j26448408608917_2_alg».proof.Proof.Gen.ReferenceIdeal.Read
import proofs.«116724_j26448408608917_2_alg».proof.Proof.Gen.Pre_finite_inputs
import proofs.«116724_j26448408608917_2_alg».proof.Proof.Bridge
import proofs.«116724_j26448408608917_2_alg».proof.Proof.Finite
import Idealize.ShloMosaic.Adequacy
import Idealize.ShloMosaic.Init

noncomputable section

open Idealize.ShloMosaic Idealize.ShloMosaic.TcCoe Idealize.SL.Sem

namespace Cert.KernelIdeal.Value

open Cert.KernelIdeal Cert.KernelIdeal.Gen Cert.KernelIdeal.Arr Cert.KernelIdeal.Tail

variable (m : (ℓ : Loc nD τ sig) → Buf (Elt Ideal) ℓ) (ρ : Dev nD → PrngReg)

/-- The kernel's run: each result at its closed expression of the arguments, the arguments unchanged. -/
theorem run : θ_run defs (onTc (τ := τ) (main (F := Ideal))) ⟨m, fun _ => 0, ρ⟩ fun r => ∀ c : Dev nD,
      r.2.mem ((c.tc : Thread nD τ).loc main_v6)
          = (fun _ => kernelMean (m ((c.tc : Thread nD τ).loc main_arg0)) (m ((c.tc : Thread nD τ).loc main_arg1)) 0)
      ∧ r.2.mem ((c.tc : Thread nD τ).loc main_v9)
          = (fun _ => kernelMean (m ((c.tc : Thread nD τ).loc main_arg0)) (m ((c.tc : Thread nD τ).loc main_arg1)) 1)
      ∧ r.2.mem ((c.tc : Thread nD τ).loc main_v12)
          = (fun _ => kernelMean (m ((c.tc : Thread nD τ).loc main_arg0)) (m ((c.tc : Thread nD τ).loc main_arg1)) 2)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v6 (Pipeline.mem_restRefs_of main_v6 rfl (by decide))).trans
        ((result0 m c).trans (funext fun i => mean_sums m c 0 slices_S3_S1_0 i)),
      ((h c).2 main_v9 (Pipeline.mem_restRefs_of main_v9 rfl (by decide))).trans
        ((result1 m c).trans (funext fun i => mean_sums m c 1 slices_S3_S1_1 i)),
      ((h c).2 main_v12 (Pipeline.mem_restRefs_of main_v12 rfl (by decide))).trans
        ((result2 m c).trans (funext fun i => mean_sums m c 2 slices_S3_S1_2 i)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Value

namespace Cert.Proof

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The ideal pass rewrote nothing. -/
theorem preserves : Cert.preserves_Kernel_KernelIdeal := trivial

/-- The reference's run, each result at its last stage as a function of the arguments. -/
theorem reference_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩
      fun r => ∀ c : Dev Cert.ReferenceIdeal.nD,
        r.2.mem ((c.tc : Thread Cert.ReferenceIdeal.nD Cert.ReferenceIdeal.τ).loc Cert.ReferenceIdeal.main_v11)
            = Cert.ReferenceIdeal.Read.val_main_v11 (F := Ideal)
                (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_v25)
            = Cert.ReferenceIdeal.Read.val_main_v25 (F := Ideal)
                (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_v39)
            = Cert.ReferenceIdeal.Read.val_main_v39 (F := Ideal)
                (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m' ((c.tc : Thread Cert.ReferenceIdeal.nD Cert.ReferenceIdeal.τ).loc Cert.ReferenceIdeal.main_arg1) :=
  (θ_run Cert.ReferenceIdeal.defs _ _).mono (fun _ h c =>
    ⟨(h c).1.trans (Cert.ReferenceIdeal.Read.val_main_v11_eq _ _), (h c).2.1.trans (Cert.ReferenceIdeal.Read.val_main_v25_eq _ _),
      (h c).2.2.1.trans (Cert.ReferenceIdeal.Read.val_main_v39_eq _ _), (h c).2.2.2⟩)
    (Cert.ReferenceIdeal.Value.run (F := Ideal) m' ρ')

/-- On arrays of real numbers the reference's three last stages are the kernel's three closed expressions. -/
theorem stages_eq (X0 X1 : (⟨3, ![32, 513, 1600]⟩ : Shape).Idx → EReal)
    (hf0 : ∀ j, ∃ a : ℝ, X0 j = (a : EReal)) (hf1 : ∀ j, ∃ a : ℝ, X1 j = (a : EReal)) :
    (Cert.ReferenceIdeal.Read.val_main_v11 (F := Ideal) X0 X1 = fun _ => Cert.KernelIdeal.Value.kernelMean X0 X1 0)
    ∧ (Cert.ReferenceIdeal.Read.val_main_v25 (F := Ideal) X0 X1 = fun _ => Cert.KernelIdeal.Value.kernelMean X0 X1 1)
    ∧ (Cert.ReferenceIdeal.Read.val_main_v39 (F := Ideal) X0 X1 = fun _ => Cert.KernelIdeal.Value.kernelMean X0 X1 2) := by
  choose a ha using hf0
  choose b hb using hf1
  obtain ⟨cc, hc, hcw⟩ := Cert.WrapLaw.period_real
  obtain rfl : X0 = Cert.Bridge.up a := funext ha
  obtain rfl : X1 = Cert.Bridge.up b := funext hb
  exact ⟨funext fun i => (Cert.RefRead.mean0 _ _ i).trans (Cert.Bridge.result0 a b hc hcw).symm,
    funext fun i => (Cert.RefRead.mean1 _ _ i).trans (Cert.Bridge.result1 a b hc hcw).symm,
    funext fun i => (Cert.RefRead.mean2 _ _ i).trans (Cert.Bridge.result2 a b hc hcw).symm⟩

/-- On finite inputs that agree, the two runs end with equal results: the inputs are arrays of real numbers, on which
    the kernel's closed expressions are the reference's last stages. -/
theorem algebraic : Cert.algebraic_KernelIdeal_ReferenceIdeal := by
  intro m ρ m' ρ' hpre hagree
  refine ⟨fun c _ => Cert.KernelIdeal.Value.kernelMean (m ((c.tc : Thread _ _).loc Cert.KernelIdeal.main_arg0)) (m ((c.tc : Thread _ _).loc Cert.KernelIdeal.main_arg1)) 0,
    fun c _ => Cert.KernelIdeal.Value.kernelMean (m ((c.tc : Thread _ _).loc Cert.KernelIdeal.main_arg0)) (m ((c.tc : Thread _ _).loc Cert.KernelIdeal.main_arg1)) 1,
    fun c _ => Cert.KernelIdeal.Value.kernelMean (m ((c.tc : Thread _ _).loc Cert.KernelIdeal.main_arg0)) (m ((c.tc : Thread _ _).loc Cert.KernelIdeal.main_arg1)) 2,
    Cert.KernelIdeal.Value.run m ρ, ?_⟩
  refine (θ_run Cert.ReferenceIdeal.defs _ _).mono (fun r h c => ?_) (reference_run m' ρ')
  obtain ⟨h11, h25, h39, hkeep⟩ := h c
  obtain ⟨hf0, hf1⟩ := Cert.Finite.real_of_pre _ _ (hpre c)
  obtain ⟨g0, g1, g2⟩ := stages_eq _ _ hf0 hf1
  have x0 := (hagree c).1
  have x1 := (hagree c).2
  exact ⟨h11.trans ((congrArg₂ (fun u v => Cert.ReferenceIdeal.Read.val_main_v11 (F := Ideal) u v) x0 x1).trans g0),
    h25.trans ((congrArg₂ (fun u v => Cert.ReferenceIdeal.Read.val_main_v25 (F := Ideal) u v) x0 x1).trans g1),
    h39.trans ((congrArg₂ (fun u v => Cert.ReferenceIdeal.Read.val_main_v39 (F := Ideal) u v) x0 x1).trans g2), hkeep⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
